-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x512 .f32) (main_arg1 : IVec S800000 32) (main_arg2 : IVec S800000 32) (main_arg3 : FVec F S800000 .f32) (main_arg4 : FVec F S512x256 .f32) (main_arg5 : FVec F S256 .f32) (main_arg6 : FVec F S256x64 .f32) (main_arg7 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x256 : Shape := ⟨2, ![1, 256]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S1x64 : Shape := ⟨2, ![1, 64]⟩
abbrev S50000x64 : Shape := ⟨2, ![50000, 64]⟩
abbrev S2000x64 : Shape := ⟨2, ![2000, 64]⟩
abbrev S800000x64 : Shape := ⟨2, ![800000, 64]⟩
abbrev S2000 : Shape := ⟨1, ![2000]⟩
abbrev S2000x1 : Shape := ⟨2, ![2000, 1]⟩

abbrev nBuf : Space → Nat
  | .hbm => 48
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1x256, .f32⟩
  | .hbm, ⟨9, _⟩ => ⟨S50000x256, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x1, .f32⟩
  | .hbm, ⟨20, _⟩ => ⟨S800000x256, .f32⟩
  | .hbm, ⟨21, _⟩ => ⟨S800000x256, .f32⟩
  | .hbm, ⟨22, _⟩ => ⟨S_, .f32⟩
  | .hbm, ⟨23, _⟩ => ⟨S50000x256, .f32⟩
  | .hbm, ⟨24, _⟩ => ⟨S800000x1, .i32⟩
  | .hbm, ⟨25, _⟩ => ⟨S50000x256, .f32⟩
  | .hbm, ⟨26, _⟩ => ⟨S_, .f32⟩
  | .hbm, ⟨27, _⟩ => ⟨S50000x256, .f32⟩
  | .hbm, ⟨28, _⟩ => ⟨S50000x256, .f32⟩
  | .hbm, ⟨29, _⟩ => ⟨S1x64, .f32⟩
  | .hbm, ⟨30, _⟩ => ⟨S50000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S800000x1, .f32⟩
  | .hbm, ⟨41, _⟩ => ⟨S800000x64, .f32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S64_S1x64 : S64.ShapeCasts S1x64
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S50000x64 : Shape := ⟨2, ![50000, 64]⟩
abbrev S1x64 : Shape := ⟨2, ![1, 64]⟩
abbrev S800000x64 : Shape := ⟨2, ![800000, 64]⟩
abbrev S50000 : Shape := ⟨1, ![50000]⟩
abbrev S50000x1 : Shape := ⟨2, ![50000, 1]⟩

abbrev nBuf : Space → Nat
  | .hbm => 66
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S50000x256, .f32⟩
  | .hbm, ⟨9, _⟩ => ⟨S1x256, .f32⟩
  | .hbm, ⟨10, _⟩ => ⟨S50000x256, .f32⟩
  | .hbm, ⟨11, _⟩ => ⟨S50000x256, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S800000x1, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x64, .f32⟩
  | .hbm, ⟨32, _⟩ => ⟨S1x64, .f32⟩
  | .hbm, ⟨33, _⟩ => ⟨S50000x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S800000x1, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S_, .f32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S50000, .f32⟩
  | .hbm, ⟨62, _⟩ => ⟨S50000x1, .f32⟩
  | .hbm, ⟨63, _⟩ => ⟨S50000x1, .f32⟩
  | .hbm, ⟨64, _⟩ => ⟨S50000x64, .f32⟩
  | .hbm, ⟨65, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The kernel's run with its result kept. Every weakly fair execution of the kernel's @main terminates without a
  fault; the argument arrays end as launched, and the result array ends at the contents the chain of segment
  boundaries assigns it: the launch memory pushed through each stretch of host operations and, at each of the three
  tiled launches, the launch's arrays replaced by what its write-backs leave. This is the frame's own argument — the
  run of the segments, the last thread state read against the final state — with the result's buffer read as well.
-/
import proofs.«103311_j46179488366795_1_alg».proof.Proof.Gen.KernelIdeal.Frame

set_option maxRecDepth 16384

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result's buffer ends at the last boundary's contents `W8`, the arguments as launched. -/
theorem run_result : θ_run defs (onTc (τ := τ) (main (F := F))) ⟨m, fun _ => 0, ρ⟩ (fun r => ∀ c : Dev nD,
      r.2.mem ((c.tc : Thread nD τ).loc main_v31) = W8 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v31 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.Gcn

end
-- ==== Proof.Stages.lean ====
/-
  The two programs as a chain of whole-array stages over the extended reals.

  A graph-convolution network of two layers: a dense layer X W + b on the 50000 node rows; an aggregation over the
  800000 edges, out[r] = Σ_{e : rows[e] = r} vals[e] · dense[cols[e]] (a gather of the rows named by the column list —
  a negative entry counted from the end —, a product with the edge weight, a scatter-add into a zero array by the
  row list); the maximum with zero; the same two steps again with 64 output columns; and a row-wise log-softmax,
  s − log Σ exp s with s = y − max over the row. Each stage below is spelt with the reference program's own
  operations, so that the reference's composed result is this chain by unfolding, and the kernel's three
  tiled launches are compared with `dense1`, `dense2` and `logSoftmax` one at a time; the aggregation and the
  maximum with zero are the same host operations in both programs and are never opened.
-/
import proofs.«103311_j46179488366795_1_alg».proof.ReferenceIdeal
import proofs.«103311_j46179488366795_1_alg».proof.Proof.Gen.ReferenceIdeal
import Idealize.ShloMosaic.PureOps.Ideal

noncomputable section

namespace Cert.Gcn

open Idealize.ShloMosaic Cert.ReferenceIdeal Cert.ReferenceIdeal.Gen

/-- The first dense layer, X W₁ + b₁: a [50000, 512] by [512, 256] product plus the bias along every row. -/
def dense1 (x : FVec Ideal S50000x512 .f32) (w : FVec Ideal S512x256 .f32) (b : FVec Ideal S256 .f32) : FVec Ideal S50000x256 .f32 :=
  addf (F := Ideal) (Host.dotGeneral (F := Ideal) dot_S50000x512_S512x256_S50000x256_1_0_0_1_n_n none x w)
    (broadcastInDim S50000x256 ![0, 1] bcast_S1x256_S50000x256_0_1 (broadcastInDim S1x256 ![1] bcast_S256_S1x256_1 b))

/-- The column list as gather indices: an entry below zero is counted from the end (50000 added), and the list is
    given a trailing unit axis. -/
def colIndex (cols : IVec S800000 32) : IVec S800000x1 32 :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 50000#32))) cols)

/-- The aggregation over the edges on 256 columns: gather the rows the column list names, weigh each by its edge's
    value, add each into the row the row list names, from a zero array. -/
def aggregate1 (rows cols : IVec S800000 32) (vals : FVec Ideal S800000 .f32) (d : FVec Ideal S50000x256 .f32) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 rows)
    (mulf (F := Ideal) (Host.gather gather_S50000x256_S800000x1_S800000x256_1_0_n_n_0_1_1256 d (colIndex cols))
      (broadcastInDim S800000x256 ![0, 1] bcast_S800000x1_S800000x256_0_1 (broadcastInDim S800000x1 ![0] bcast_S800000_S800000x1_0 vals)))

/-- The maximum with zero, entry by entry. -/
def relu1 (d : FVec Ideal S50000x256 .f32) : FVec Ideal S50000x256 .f32 :=
  maximumf (F := Ideal) d (broadcastInDim S50000x256 ![] bcast_S_S50000x256 (constant (F := Ideal) S_ .f32 0x00000000#32))

/-- The second dense layer, H W₂ + b₂: a [50000, 256] by [256, 64] product plus the bias along every row. -/
def dense2 (h : FVec Ideal S50000x256 .f32) (w : FVec Ideal S256x64 .f32) (b : FVec Ideal S64 .f32) : FVec Ideal S50000x64 .f32 :=
  addf (F := Ideal) (Host.dotGeneral (F := Ideal) dot_S50000x256_S256x64_S50000x64_1_0_0_1_n_n none h w)
    (broadcastInDim S50000x64 ![0, 1] bcast_S1x64_S50000x64_0_1 (broadcastInDim S1x64 ![1] bcast_S64_S1x64_1 b))

/-- The aggregation over the edges on 64 columns. -/
def aggregate2 (rows cols : IVec S800000 32) (vals : FVec Ideal S800000 .f32) (d : FVec Ideal S50000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 rows)
    (mulf (F := Ideal) (Host.gather gather_S50000x64_S800000x1_S800000x64_1_0_n_n_0_1_164 d (colIndex cols))
      (broadcastInDim S800000x64 ![0, 1] bcast_S800000x1_S800000x64_0_1 (broadcastInDim S800000x1 ![0] bcast_S800000_S800000x1_0 vals)))

/-- Each row less its maximum (the maximum taken from −∞, and once more against −∞ as jax's log_softmax does). -/
def shifted (y : FVec Ideal S50000x64 .f32) : FVec Ideal S50000x64 .f32 :=
  subf (F := Ideal) y (broadcastInDim S50000x64 ![0, 1] bcast_S50000x1_S50000x64_0_1 (broadcastInDim S50000x1 ![0] bcast_S50000_S50000x1_0
    (maximumf (F := Ideal) (broadcastInDim S50000 ![] bcast_S_S50000 (constant (F := Ideal) S_ .f32 0xFF800000#32))
      (Host.reduce FloatOps.maximumf y (constant (F := Ideal) S_ .f32 0xFF800000#32) reducesTo_S50000x64_S50000_d1 h_S_))))

/-- The row-wise log-softmax: s − log Σ exp s over the row, s the shifted row. -/
def logSoftmax (y : FVec Ideal S50000x64 .f32) : FVec Ideal S50000x64 .f32 :=
  subf (F := Ideal) (shifted y) (broadcastInDim S50000x64 ![0, 1] bcast_S50000x1_S50000x64_0_1
    (Host.log (F := Ideal) (broadcastInDim S50000x1 ![0] bcast_S50000_S50000x1_0
      (Host.reduceAdd (F := Ideal) (Host.exp (F := Ideal) (shifted y)) (constant (F := Ideal) S_ .f32 0x00000000#32) reducesTo_S50000x64_S50000_d1 h_S_))))

/-- The whole network on the eight arguments. -/
def network (x0 : FVec Ideal S50000x512 .f32) (x1 x2 : IVec S800000 32) (x3 : FVec Ideal S800000 .f32) (x4 : FVec Ideal S512x256 .f32)
    (x5 : FVec Ideal S256 .f32) (x6 : FVec Ideal S256x64 .f32) (x7 : FVec Ideal S64 .f32) : FVec Ideal S50000x64 .f32 :=
  logSoftmax (aggregate2 x1 x2 x3 (dense2 (relu1 (aggregate1 x1 x2 x3 (dense1 x0 x4 x5))) x6 x7))

end Cert.Gcn

end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.RegionDense.lean ====
/-
  The two dense layers of the network, tiled: each of the first two launches computes X W + b on 25 blocks of 2000 rows.

  At an entry (r, j) both programs hold the same extended-real number, Σ_k x(r, k) · w(k, j) + b(j), the sum taken over
  the contracted coordinate in the same order, so nothing is rearranged: each side is only read at an index. On the tiled
  side the block of point t holds rows 2000 q … 2000 q + 1999 of the left operand (q the point's row-block index), the
  whole weight matrix and the bias as one row; its product into a zero accumulator plus the bias row laid along the rows,
  read at (p, j), is row p of the block against column j. The roundings of the operands to a shorter float format do
  nothing at the extended reals, and a shape cast to the same shape is the identity. On the reference side the product
  over all 50000 rows and the two-step broadcast of the bias are read at (r, j). Row r lies in the block q = r / 2000,
  and the 25 blocks fill the 50000 rows, so the array after the launch is the dense layer of the arrays before it.
-/
import proofs.«103311_j46179488366795_1_alg».proof.Proof.Stages
import proofs.«103311_j46179488366795_1_alg».proof.Proof.Gen.KernelIdeal.Frame
import proofs.«103311_j46179488366795_1_alg».proof.Proof.LibDenseLayer
import Idealize.ShloMosaic.Lib.Pipeline.Value
import Idealize.ShloMosaic.Lib.ValueIdx
import Idealize.ShloMosaic.PureOps.Ideal.Laws
set_option maxRecDepth 16384

noncomputable section

namespace Cert.Gcn

open Idealize.ShloMosaic Idealize.ShloMosaic.TcCoe Idealize.SL.Sem Idealize.ShloMosaic.ValueIdx
open Cert.KernelIdeal Cert.KernelIdeal.Gen

namespace Dense

/-! ## A product plus a bias row, read at an entry -/

/-- A matrix product of operands of any float types into a zero accumulator, plus a bias row laid along every row,
    read at the entry (p, j): the sum over the contracted coordinate of the products, plus the bias entry. -/
theorem product_bias_apply {R K N : Nat} {φ₁ φ₂ : FTy} (D : DotDims ⟨2, ![R, K]⟩ ⟨2, ![K, N]⟩ ⟨2, ![R, N]⟩) (hD : D = DotDims.plain R K N)
    (prec : Option ContractPrecision) (h : FVec Ideal ⟨2, ![R, K]⟩ φ₁) (w : FVec Ideal ⟨2, ![K, N]⟩ φ₂)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = ∑ k : Fin K, h (ix2 p k) * w (ix2 k j) + bias (ix2 (0 : Fin 1) j) := by
  subst hD
  rw [addf_apply, broadcastTo_1b_ab_apply]
  refine congrArg (· + bias (ix2 (0 : Fin 1) j)) ?_
  exact (congrFun (matmul_zero_eq_dotGeneral _ prec h w) _).trans (StackMember.dotGeneral_plain_apply prec h w p j)

/-! ## The first launch: [2000, 512] blocks of X against W₁ [512, 256], plus b₁ -/

theorem dot0_plain : dot_S2000x512_S512x256_S2000x256_1_0_0_1_n_n = DotDims.plain 2000 512 256 := rfl

/-- The first launch's block arithmetic at an entry: row p of the block against column j of the weights, plus the bias. -/
theorem pay0_apply (x0 : Vec Ideal S2000x512 .f32) (x1 : Vec Ideal S512x256 .f32) (x2 : Vec Ideal S1x256 .f32) (p : Fin 2000) (j : Fin 256) :
    k0_pay1 (F := Ideal) x0 x1 x2 (ix2 p j) = ∑ k : Fin 512, x0 (ix2 p k) * x1 (ix2 k j) + x2 (ix2 (0 : Fin 1) j) := by
  unfold k0_pay1
  rw [shapeCast_self]
  exact product_bias_apply _ dot0_plain none _ _ x2 _ p j

theorem dotr0_plain : Cert.ReferenceIdeal.dot_S50000x512_S512x256_S50000x256_1_0_0_1_n_n = DotDims.plain 50000 512 256 := rfl

/-- The reference's first dense layer at an entry. -/
theorem dense1_apply (x : FVec Ideal S50000x512 .f32) (w : FVec Ideal S512x256 .f32) (b : FVec Ideal S256 .f32) (r : Fin 50000) (j : Fin 256) :
    dense1 x w b (ix2 r j) = ∑ k : Fin 512, x (ix2 r k) * w (ix2 k j) + b (ix1 j) := by
  unfold dense1
  rw [addf_apply, dotr0_plain, StackMember.dotGeneral_plain_apply]
  refine congrArg (_ + ·) ?_
  rw [broadcastInDim_apply _ _ _ (ix2 r j) (ix2 (0 : Fin 1) j) (fun a => by
        match a with
        | ⟨0, _⟩ => rfl
        | ⟨1, _⟩ => rfl),
      broadcastInDim_apply _ _ _ (ix2 (0 : Fin 1) j) (ix1 j) (fun a => by
        match a with
        | ⟨0, _⟩ => rfl)]

/-- The zero offsets of a whole-block access, however spelt. -/
theorem zero_offsets : (![0, 0] : Fin 2 → Nat) = fun _ => 0 := funext fun a => by fin_cases a <;> rfl

/-- One entry of a block of the first launch against the entry of the dense layer it lands on: when row p of the
    block is row r of X, the weight and bias blocks are the whole weight matrix and the bias row, the two are the
    same sum of products plus the same bias entry. -/
theorem dense1_block (x : FVec Ideal S50000x512 .f32) (w : FVec Ideal S512x256 .f32) (b : FVec Ideal S256 .f32)
    (x0 : Vec Ideal S2000x512 .f32) (x1 : Vec Ideal S512x256 .f32) (x2 : Vec Ideal S1x256 .f32)
    (p : Fin 2000) (j : Fin 256) (r : Fin 50000)
    (h0 : ∀ k : Fin 512, x0 (ix2 p k) = x (ix2 r k))
    (h1 : ∀ k : Fin 512, x1 (ix2 k j) = w (ix2 k j))
    (h2 : x2 (ix2 (0 : Fin 1) j) = b (ix1 j)) :
    k0_pay1 (F := Ideal) x0 x1 x2 (ix2 p j) = dense1 x w b (ix2 r j) := by
  rw [pay0_apply, dense1_apply, h2]
  refine congrArg (· + b (ix1 j)) (Finset.sum_congr rfl fun k _ => ?_)
  rw [h0 k, h1 k]

/-- The first launch's index maps over its 25 points: the rows of X move with the output's rows, every other block
    index is zero, and the output's row-block index stays below 25. -/
theorem index_maps0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 24 ∧ win0_3.index t (1 : Fin 2) = 0 :=
  (by decide +kernel : ∀ t : Fin grid0.N, _)

/-- Every one of the 25 row blocks of the output is some point's. -/
theorem row_block_onto0 : ∀ q : Fin 25, ∃ t : Fin cfg0.N, win0_3.index t = ![q.val, 0] :=
  (by decide +kernel : ∀ q : Fin 25, ∃ t : Fin grid0.N, win0_3.index t = ![q.val, 0])

/-- What a point of the first launch writes back is its block of the first dense layer of the arrays the launch found. -/
theorem written0 (V : (c : Dev nD) → (b : Ref sig .tc) → Buf (Elt Ideal) ((c : Thread nD τ).loc b)) (c : Dev nD)
    (b : FVec Ideal S256 .f32) (hb : (V c main_v0 : FVec Ideal S1x256 .f32) = shapeCast S1x256 b shapeCasts_S256_S1x256)
    (t : Fin cfg0.N) :
    (dat0 (F := Ideal) V c).flushed 3 t
      = ((cfg0.win 3).blk t).view.read (Elt Ideal) (dense1 (V c main_arg0) (V c main_arg4) b : FVec Ideal S50000x256 .f32) := by
  show (cfg0.win 3).cut (grid0.coords t) ((dat0 V c).after 3 t) = _
  rw [after0_3]
  unfold out0_3
  rw [View.canon_unit_zero zero_offsets]
  simp only [View.ld_unit_zero (S := S2000x512) zero_offsets, View.ld_unit_zero (S := S512x256) zero_offsets,
    View.ld_unit_zero (S := S1x256) zero_offsets]
  obtain ⟨e00, e01, e10, e11, e20, e21, e30, e31⟩ := index_maps0 t
  funext y
  have hy0 : (y 0).val < 2000 := (y 0).isLt
  have hy1 : (y 1).val < 256 := (y 1).isLt
  have hr : win0_3.index t (0 : Fin 2) * 2000 + 1 * (y 0).val < 50000 := by omega
  have eL : (cfg0.win 3).xinj (grid0.coords t) y = ix2 (⟨(y 0).val, hy0⟩ : Fin 2000) (⟨(y 1).val, hy1⟩ : Fin 256) :=
    funext fun a => Fin.ext (by
      match a with
      | ⟨0, _⟩ => rfl
      | ⟨1, _⟩ => rfl)
  have eR : ((cfg0.win 3).blk t).view.emb y
      = ix2 (⟨win0_3.index t (0 : Fin 2) * 2000 + 1 * (y 0).val, hr⟩ : Fin 50000) (⟨(y 1).val, hy1⟩ : Fin 256) :=
    funext fun a => Fin.ext (by
      match a with
      | ⟨0, _⟩ => rfl
      | ⟨1, _⟩ => show win0_3.index t (1 : Fin 2) * 256 + 1 * (y 1).val = (y 1).val; omega)
  show k0_pay1 (F := Ideal) (iblk0 V c 0 t) (iblk0 V c 1 t) (iblk0 V c 2 t) ((cfg0.win 3).xinj (grid0.coords t) y)
    = dense1 (V c main_arg0) (V c main_arg4) b (((cfg0.win 3).blk t).view.emb y)
  rw [eL, eR]
  refine dense1_block (V c main_arg0) (V c main_arg4) b (iblk0 V c 0 t) (iblk0 V c 1 t) (iblk0 V c 2 t) _ _ _ ?_ ?_ ?_
  · intro k
    show V c main_arg0 (((cfg0.win 0).blk t).view.emb (ix2 (⟨(y 0).val, hy0⟩ : Fin 2000) k)) = _
    refine congrArg (V c main_arg0) (funext fun a => Fin.ext ?_)
    match a with
    | ⟨0, _⟩ => show win0_0.index t (0 : Fin 2) * 2000 + 1 * (y 0).val = win0_3.index t (0 : Fin 2) * 2000 + 1 * (y 0).val; omega
    | ⟨1, _⟩ => show win0_0.index t (1 : Fin 2) * 512 + 1 * k.val = k.val; omega
  · intro k
    show V c main_arg4 (((cfg0.win 1).blk t).view.emb (ix2 k (⟨(y 1).val, hy1⟩ : Fin 256))) = _
    refine congrArg (V c main_arg4) (funext fun a => Fin.ext ?_)
    match a with
    | ⟨0, _⟩ => show win0_1.index t (0 : Fin 2) * 512 + 1 * k.val = k.val; omega
    | ⟨1, _⟩ => show win0_1.index t (1 : Fin 2) * 256 + 1 * (y 1).val = (y 1).val; omega
  · show (V c main_v0 : FVec Ideal S1x256 .f32) (((cfg0.win 2).blk t).view.emb (ix2 (0 : Fin 1) (⟨(y 1).val, hy1⟩ : Fin 256))) = _
    have e2 : ((cfg0.win 2).blk t).view.emb (ix2 (0 : Fin 1) (⟨(y 1).val, hy1⟩ : Fin 256))
        = ix2 (0 : Fin 1) (⟨(y 1).val, hy1⟩ : Fin 256) :=
      funext fun a => Fin.ext (by
        match a with
        | ⟨0, _⟩ => show win0_2.index t (0 : Fin 2) * 1 + 1 * 0 = 0; omega
        | ⟨1, _⟩ => show win0_2.index t (1 : Fin 2) * 256 + 1 * (y 1).val = (y 1).val; omega)
    rw [e2, hb, shapeCast_a_1a_apply]

/-- An entry of the output is in a point's block iff each coordinate is in the block's range on its axis. -/
theorem mem_block0 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v1).slice (win0_3.rect t)).set ↔ _
  rw [View.set_slice_whole, Rect.mem_set_unit]
  exact Iff.rfl

/-- Row r of the output is in the block of the point whose row-block index is r / 2000: the blocks fill the array. -/
theorem blocks_cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := row_block_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

end Dense

/-- After the first launch the output array is the first dense layer of the arrays the launch found: every block of
    2000 rows holds those rows of X W₁ + b₁, and the 25 blocks fill the 50000 rows. The bias window holds the bias
    as one row. -/
theorem region0_array (V : (c : Dev nD) → (b : Ref sig .tc) → Buf (Elt Ideal) ((c : Thread nD τ).loc b)) (c : Dev nD)
    (b : FVec Ideal S256 .f32) (hb : (V c main_v0 : FVec Ideal S1x256 .f32) = shapeCast S1x256 b shapeCasts_S256_S1x256) :
    ((dat0 (F := Ideal) V c).arrAt 3 cfg0.N : FVec Ideal S50000x256 .f32) = dense1 (V c main_arg0) (V c main_arg4) b :=
  (dat0 (F := Ideal) V c).arrAt_eq_of_cover 3 (dense1 (V c main_arg0) (V c main_arg4) b) (fun t _ => Dense.written0 V c b hb t)
    Dense.blocks_cover0

namespace Dense

/-! ## The second launch: [2000, 256] blocks of H against W₂ [256, 64], plus b₂ -/

theorem dot1_plain : dot_S2000x256_S256x64_S2000x64_1_0_0_1_n_n = DotDims.plain 2000 256 64 := rfl

/-- The second launch's block arithmetic at an entry: row p of the block against column j of the weights, plus the bias. -/
theorem pay1_apply (x0 : Vec Ideal S2000x256 .f32) (x1 : Vec Ideal S256x64 .f32) (x2 : Vec Ideal S1x64 .f32) (p : Fin 2000) (j : Fin 64) :
    k1_pay1 (F := Ideal) x0 x1 x2 (ix2 p j) = ∑ k : Fin 256, x0 (ix2 p k) * x1 (ix2 k j) + x2 (ix2 (0 : Fin 1) j) := by
  unfold k1_pay1
  rw [shapeCast_self, shapeCast_self]
  exact product_bias_apply _ dot1_plain none _ _ x2 _ p j

theorem dotr1_plain : Cert.ReferenceIdeal.dot_S50000x256_S256x64_S50000x64_1_0_0_1_n_n = DotDims.plain 50000 256 64 := rfl

/-- The reference's second dense layer at an entry. -/
theorem dense2_apply (h : FVec Ideal S50000x256 .f32) (w : FVec Ideal S256x64 .f32) (b : FVec Ideal S64 .f32) (r : Fin 50000) (j : Fin 64) :
    dense2 h w b (ix2 r j) = ∑ k : Fin 256, h (ix2 r k) * w (ix2 k j) + b (ix1 j) := by
  unfold dense2
  rw [addf_apply, dotr1_plain, StackMember.dotGeneral_plain_apply]
  refine congrArg (_ + ·) ?_
  rw [broadcastInDim_apply _ _ _ (ix2 r j) (ix2 (0 : Fin 1) j) (fun a => by
        match a with
        | ⟨0, _⟩ => rfl
        | ⟨1, _⟩ => rfl),
      broadcastInDim_apply _ _ _ (ix2 (0 : Fin 1) j) (ix1 j) (fun a => by
        match a with
        | ⟨0, _⟩ => rfl)]

/-- One entry of a block of the second launch against the entry of the dense layer it lands on. -/
theorem dense2_block (h : FVec Ideal S50000x256 .f32) (w : FVec Ideal S256x64 .f32) (b : FVec Ideal S64 .f32)
    (x0 : Vec Ideal S2000x256 .f32) (x1 : Vec Ideal S256x64 .f32) (x2 : Vec Ideal S1x64 .f32)
    (p : Fin 2000) (j : Fin 64) (r : Fin 50000)
    (h0 : ∀ k : Fin 256, x0 (ix2 p k) = h (ix2 r k))
    (h1 : ∀ k : Fin 256, x1 (ix2 k j) = w (ix2 k j))
    (h2 : x2 (ix2 (0 : Fin 1) j) = b (ix1 j)) :
    k1_pay1 (F := Ideal) x0 x1 x2 (ix2 p j) = dense2 h w b (ix2 r j) := by
  rw [pay1_apply, dense2_apply, h2]
  refine congrArg (· + b (ix1 j)) (Finset.sum_congr rfl fun k _ => ?_)
  rw [h0 k, h1 k]

/-- The second launch's index maps over its 25 points: the rows of H move with the output's rows, every other block
    index is zero, and the output's row-block index stays below 25. -/
theorem index_maps1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 24 ∧ win1_3.index t (1 : Fin 2) = 0 :=
  (by decide +kernel : ∀ t : Fin grid1.N, _)

/-- Every one of the 25 row blocks of the output is some point's. -/
theorem row_block_onto1 : ∀ q : Fin 25, ∃ t : Fin cfg1.N, win1_3.index t = ![q.val, 0] :=
  (by decide +kernel : ∀ q : Fin 25, ∃ t : Fin grid1.N, win1_3.index t = ![q.val, 0])

/-- What a point of the second launch writes back is its block of the second dense layer of the arrays the launch found. -/
theorem written1 (V : (c : Dev nD) → (b : Ref sig .tc) → Buf (Elt Ideal) ((c : Thread nD τ).loc b)) (c : Dev nD)
    (b : FVec Ideal S64 .f32) (hb : (V c main_v16 : FVec Ideal S1x64 .f32) = shapeCast S1x64 b shapeCasts_S64_S1x64)
    (t : Fin cfg1.N) :
    (dat1 (F := Ideal) V c).flushed 3 t
      = ((cfg1.win 3).blk t).view.read (Elt Ideal) (dense2 (V c main_v15) (V c main_arg6) b : FVec Ideal S50000x64 .f32) := by
  show (cfg1.win 3).cut (grid1.coords t) ((dat1 V c).after 3 t) = _
  rw [after1_3]
  unfold out1_3
  rw [View.canon_unit_zero zero_offsets]
  simp only [View.ld_unit_zero (S := S2000x256) zero_offsets, View.ld_unit_zero (S := S256x64) zero_offsets,
    View.ld_unit_zero (S := S1x64) zero_offsets]
  obtain ⟨e00, e01, e10, e11, e20, e21, e30, e31⟩ := index_maps1 t
  funext y
  have hy0 : (y 0).val < 2000 := (y 0).isLt
  have hy1 : (y 1).val < 64 := (y 1).isLt
  have hr : win1_3.index t (0 : Fin 2) * 2000 + 1 * (y 0).val < 50000 := by omega
  have eL : (cfg1.win 3).xinj (grid1.coords t) y = ix2 (⟨(y 0).val, hy0⟩ : Fin 2000) (⟨(y 1).val, hy1⟩ : Fin 64) :=
    funext fun a => Fin.ext (by
      match a with
      | ⟨0, _⟩ => rfl
      | ⟨1, _⟩ => rfl)
  have eR : ((cfg1.win 3).blk t).view.emb y
      = ix2 (⟨win1_3.index t (0 : Fin 2) * 2000 + 1 * (y 0).val, hr⟩ : Fin 50000) (⟨(y 1).val, hy1⟩ : Fin 64) :=
    funext fun a => Fin.ext (by
      match a with
      | ⟨0, _⟩ => rfl
      | ⟨1, _⟩ => show win1_3.index t (1 : Fin 2) * 64 + 1 * (y 1).val = (y 1).val; omega)
  show k1_pay1 (F := Ideal) (iblk1 V c 0 t) (iblk1 V c 1 t) (iblk1 V c 2 t) ((cfg1.win 3).xinj (grid1.coords t) y)
    = dense2 (V c main_v15) (V c main_arg6) b (((cfg1.win 3).blk t).view.emb y)
  rw [eL, eR]
  refine dense2_block (V c main_v15) (V c main_arg6) b (iblk1 V c 0 t) (iblk1 V c 1 t) (iblk1 V c 2 t) _ _ _ ?_ ?_ ?_
  · intro k
    show V c main_v15 (((cfg1.win 0).blk t).view.emb (ix2 (⟨(y 0).val, hy0⟩ : Fin 2000) k)) = _
    refine congrArg (V c main_v15) (funext fun a => Fin.ext ?_)
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 256 + 1 * k.val = k.val; omega
  · intro k
    show V c main_arg6 (((cfg1.win 1).blk t).view.emb (ix2 k (⟨(y 1).val, hy1⟩ : Fin 64))) = _
    refine congrArg (V c main_arg6) (funext fun a => Fin.ext ?_)
    match a with
    | ⟨0, _⟩ => show win1_1.index t (0 : Fin 2) * 256 + 1 * k.val = k.val; omega
    | ⟨1, _⟩ => show win1_1.index t (1 : Fin 2) * 64 + 1 * (y 1).val = (y 1).val; omega
  · show (V c main_v16 : FVec Ideal S1x64 .f32) (((cfg1.win 2).blk t).view.emb (ix2 (0 : Fin 1) (⟨(y 1).val, hy1⟩ : Fin 64))) = _
    have e2 : ((cfg1.win 2).blk t).view.emb (ix2 (0 : Fin 1) (⟨(y 1).val, hy1⟩ : Fin 64))
        = ix2 (0 : Fin 1) (⟨(y 1).val, hy1⟩ : Fin 64) :=
      funext fun a => Fin.ext (by
        match a with
        | ⟨0, _⟩ => show win1_2.index t (0 : Fin 2) * 1 + 1 * 0 = 0; omega
        | ⟨1, _⟩ => show win1_2.index t (1 : Fin 2) * 64 + 1 * (y 1).val = (y 1).val; omega)
    rw [e2, hb, shapeCast_a_1a_apply]

/-- An entry of the output is in a point's block iff each coordinate is in the block's range on its axis. -/
theorem mem_block1 (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v17).slice (win1_3.rect t)).set ↔ _
  rw [View.set_slice_whole, Rect.mem_set_unit]
  exact Iff.rfl

/-- Row r of the output is in the block of the point whose row-block index is r / 2000: the blocks fill the array. -/
theorem blocks_cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := row_block_onto1 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_block1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

end Dense

/-- After the second launch the output array is the second dense layer of the arrays the launch found. -/
theorem region1_array (V : (c : Dev nD) → (b : Ref sig .tc) → Buf (Elt Ideal) ((c : Thread nD τ).loc b)) (c : Dev nD)
    (b : FVec Ideal S64 .f32) (hb : (V c main_v16 : FVec Ideal S1x64 .f32) = shapeCast S1x64 b shapeCasts_S64_S1x64) :
    ((dat1 (F := Ideal) V c).arrAt 3 cfg1.N : FVec Ideal S50000x64 .f32) = dense2 (V c main_v15) (V c main_arg6) b :=
  (dat1 (F := Ideal) V c).arrAt_eq_of_cover 3 (dense2 (V c main_v15) (V c main_arg6) b) (fun t _ => Dense.written1 V c b hb t)
    Dense.blocks_cover1

end Cert.Gcn

end
-- ==== Proof.LibMaxReduce.lean ====
/-
  Maximum reductions read at an index, over the extended reals, as folds of `max` over one coordinate.

  A vector maximum-reduction of an [a, b] array over its rows, at lane q, is the fold of max from the accumulator's
  value over the entries (j, q); the host's reduce with a maximum body over the middle axis of an [a, b, c] array,
  at (n, k), is the fold of max from the initial value over the entries (n, j, k).  Each index with the reduced
  coordinate put back is named by its coordinates, so a proof continues entry by entry.
-/
import Idealize.ShloMosaic.PureOps.Ideal.Laws
import Idealize.ShloMosaic.PureOps.Reduce
import Idealize.ShloMosaic.Lib.ValueIdx

noncomputable section

namespace MaxReduce

open Idealize.ShloMosaic Idealize.ShloMosaic.ValueIdx

variable {a b c : ℕ}

/-- In an [a, b] array reduced over its rows, the reduced index `q` with row `j` put back is (j, q). -/
theorem lift_rows (h : (⟨2, ![a, b]⟩ : Shape).Reduces [0] (⟨1, ![b]⟩ : Shape)) (q : Fin b)
    (j : Fin ((⟨2, ![a, b]⟩ : Shape).size 0)) : h.lift (ix1 q) j = ix2 (⟨j.val, j.isLt⟩ : Fin a) q := by
  funext d; apply Fin.ext
  fin_cases d <;> rfl

/-- A vector maximum-reduction of an [a, b] array over its rows, at lane `q`: the fold of max from the accumulator's
    value over the rows' entries at that lane. -/
theorem multiReduction_max_rows {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (q : Fin b) :
    multiReduction .maximumf [0] (⟨1, ![b]⟩ : Shape) src acc h hφ hacc (ix1 q)
      = (Finset.univ : Finset (Fin a)).fold max (Ideal.ofBits φ acc) fun j => src (ix2 j q) := by
  refine (Ideal.multiReduction_maximumf_single src acc h hφ hacc (ix1 q)).trans ?_
  refine congrArg (fun f => Finset.fold max (Ideal.ofBits φ acc) f (Finset.univ : Finset (Fin a))) ?_
  funext j
  exact congrArg src (lift_rows h q j)

/-- In an [a, b, c] array reduced over its middle axis, the reduced index (n, k) with coordinate `j` put back is
    (n, j, k). -/
theorem lift_mid (h : (⟨3, ![a, b, c]⟩ : Shape).Reduces [1] (⟨2, ![a, c]⟩ : Shape)) (n : Fin a) (k : Fin c)
    (j : Fin ((⟨3, ![a, b, c]⟩ : Shape).size 1)) : h.lift (ix2 n k) j = ix3 n (⟨j.val, j.isLt⟩ : Fin b) k := by
  funext d; apply Fin.ext
  fin_cases d <;> rfl

/-- The host's reduce with a maximum body over the middle axis of an [a, b, c] array, at (n, k): the fold of max
    from the initial value's element over the entries (n, j, k). -/
theorem hostReduce_max_mid {φ : FTy} {u : Shape} (x : FVec Ideal ⟨3, ![a, b, c]⟩ φ) (init : u.Idx → Ideal φ)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (n : Fin a) (k : Fin c) :
    Host.reduce FloatOps.maximumf x init h' hu (ix2 n k)
      = (Finset.univ : Finset (Fin b)).fold max (init (Shape.Idx.first hu)) fun j => x (ix3 n j k) := by
  rw [Host.reduce_eq_fold_single FloatOps.maximumf x init h' h hu]
  refine congrArg (fun f => Finset.fold max (init (Shape.Idx.first hu)) f (Finset.univ : Finset (Fin b))) ?_
  funext j
  exact congrArg x (lift_mid h n k j)

end MaxReduce

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.RegionSoftmax.lean ====
/-
  The third launch: a row-wise log-softmax, block by block.

  Entry (r, j) of the log-softmax of an [a, b] array y is (y(r,j) − M r) − log Σₖ exp (y(r,k) − M r), with M r the
  fold of max from −∞ over the entries of row r.  The kernel computes this on blocks of 2000 rows with vector
  reductions along the rows; the reference computes it on the whole [50000, 64] array with the host's reductions,
  taking the row maximum once more against −∞ (which changes nothing: a fold of max from −∞ is at least −∞) and adding
  the row sum to a zero initial value.  Both are read here at an index as the same term, rowLogSoftmax; since that
  term at row r mentions row r only, row p of block t is row 2000 t + p of the array's log-softmax, and the 25 blocks
  fill the 50000 rows.
-/
import proofs.«103311_j46179488366795_1_alg».proof.Proof.Stages
import proofs.«103311_j46179488366795_1_alg».proof.Proof.Gen.KernelIdeal.Frame
import proofs.«103311_j46179488366795_1_alg».proof.Proof.LibMaxReduce
import proofs.«103311_j46179488366795_1_alg».proof.Proof.LibColumnLayout
import Idealize.ShloMosaic.Lib.Pipeline.Value
import Idealize.ShloMosaic.Lib.ValueIdx
import Idealize.ShloMosaic.PureOps.Ideal.Laws
set_option maxRecDepth 16384

noncomputable section

namespace Cert.Gcn

open Idealize.ShloMosaic Idealize.ShloMosaic.TcCoe Idealize.SL.Sem Idealize.ShloMosaic.ValueIdx
open Cert.KernelIdeal Cert.KernelIdeal.Gen

namespace Softmax

/-! ## The row-wise log-softmax, entry by entry -/

section Rows

variable {a b : ℕ}

/-- The maximum of row p of an [a, b] array: the fold of max from −∞ over the row's entries. -/
def rowMax (y : (⟨2, ![a, b]⟩ : Shape).Idx → EReal) (p : Fin a) : EReal :=
  (Finset.univ : Finset (Fin b)).fold max (Ideal.ofBits .f32 0xFF800000#32) fun k => y (ix2 p k)

/-- Entry (p, j) of the row-wise log-softmax: s − log Σₖ exp sₖ with s the row less its maximum. -/
def rowLogSoftmax (y : (⟨2, ![a, b]⟩ : Shape).Idx → EReal) (p : Fin a) (j : Fin b) : EReal :=
  (y (ix2 p j) - rowMax y p) - Ideal.log (∑ k : Fin b, Ideal.exp (y (ix2 p k) - rowMax y p))

/-- A row's log-softmax depends on that row only: two arrays (of any heights) that agree along a pair of rows have the
    same log-softmax along them. -/
theorem rowLogSoftmax_congr {a' : ℕ} (x : (⟨2, ![a, b]⟩ : Shape).Idx → EReal) (y : (⟨2, ![a', b]⟩ : Shape).Idx → EReal)
    (p : Fin a) (r : Fin a') (h : ∀ k : Fin b, x (ix2 p k) = y (ix2 r k)) (j : Fin b) :
    rowLogSoftmax x p j = rowLogSoftmax y r j := by
  have hm : rowMax x p = rowMax y r := by
    unfold rowMax
    exact congrArg (fun f => Finset.fold max (Ideal.ofBits .f32 0xFF800000#32) f (Finset.univ : Finset (Fin b))) (funext h)
  unfold rowLogSoftmax
  rw [hm, h j]
  simp only [h]

/-- In an [a, b] array reduced along its rows (over axis 1), the reduced index p with coordinate k put back is (p, k). -/
theorem lift_cols (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext d; apply Fin.ext
  fin_cases d <;> rfl

/-- A vector maximum-reduction of an [a, b] array along its rows, at row p: the fold of max from the accumulator's
    value over the row's entries. -/
theorem multiReduction_max_cols {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) fun k => src (ix2 p k) := by
  refine (Ideal.multiReduction_maximumf_single src acc h hφ hacc (ix1 p)).trans ?_
  refine congrArg (fun f => Finset.fold max (Ideal.ofBits φ acc) f (Finset.univ : Finset (Fin b))) ?_
  funext k
  exact congrArg src (lift_cols h p k)

/-- A vector sum-reduction of an [a, b] array along its rows, at row p: the sum of the row's entries. -/
theorem multiReduction_add_cols {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) src acc h hφ hacc (ix1 p) = ∑ k : Fin b, src (ix2 p k) := by
  refine (Ideal.multiReduction_add_single src acc h hφ hacc (ix1 p)).trans ?_
  refine Finset.sum_congr rfl fun k _ => ?_
  exact congrArg src (lift_cols h p k)

/-- The host's reduce with a maximum body along the rows of an [a, b] array, at row p: the fold of max from the
    initial value's element over the row's entries. -/
theorem hostReduce_max_cols {φ : FTy} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduce FloatOps.maximumf x init h' hu (ix1 p)
      = (Finset.univ : Finset (Fin b)).fold max (init (Shape.Idx.first hu)) fun k => x (ix2 p k) := by
  rw [Host.reduce_eq_fold_single FloatOps.maximumf x init h' h hu]
  refine congrArg (fun f => Finset.fold max (init (Shape.Idx.first hu)) f (Finset.univ : Finset (Fin b))) ?_
  funext k
  exact congrArg x (lift_cols h p k)

/-- The host's sum along the rows of an [a, b] array, at row p: the initial value's element plus the sum of the
    row's entries. -/
theorem hostReduceAdd_cols {φ : FTy} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduceAdd (F := Ideal) x init h' hu (ix1 p) = init (Shape.Idx.first hu) + ∑ k : Fin b, x (ix2 p k) := by
  refine (Ideal.hostReduceAdd_single h' h x (init (Shape.Idx.first hu)) (ix1 p)).trans ?_
  refine congrArg (fun s => init (Shape.Idx.first hu) + s) ?_
  refine Finset.sum_congr rfl fun k _ => ?_
  exact congrArg x (lift_cols h p k)

end Rows

/-! ## Column forms of the host's broadcasts, and the pointwise exponential and logarithm, read at an index -/

section Layout

variable {α : Type} {a b : ℕ}

/-- A vector [a] broadcast to the column [a, 1] reads, at (p, 0), the operand at p. -/
theorem broadcastInDim_a_a1_apply (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A column [a, 1] broadcast to [a, b] reads, at (p, j), the operand at (p, 0). -/
theorem broadcastInDim_a1_ab_apply (x : (⟨2, ![a, 1]⟩ : Shape).Idx → α)
    (h : (⟨2, ![a, 1]⟩ : Shape).BroadcastsInDim ⟨2, ![a, b]⟩ ![0, 1]) (p : Fin a) (j : Fin b) :
    broadcastInDim ⟨2, ![a, b]⟩ ![0, 1] h x (ix2 p j) = x (ix2 p (0 : Fin 1)) := by
  refine broadcastInDim_apply ![0, 1] h x (ix2 p j) (ix2 p (0 : Fin 1)) fun ax => ?_
  match ax with
  | ⟨0, _⟩ =>
    show p.val = if a = 1 then 0 else p.val
    split
    · have := p.isLt; omega
    · rfl
  | ⟨1, _⟩ => rfl

/-- A scalar broadcast to any shape reads the scalar everywhere. -/
theorem broadcastInDim_scalar_apply {T : Shape} (h : (⟨0, ![]⟩ : Shape).BroadcastsInDim T ![])
    (x : (⟨0, ![]⟩ : Shape).Idx → α) (i : T.Idx) : broadcastInDim T ![] h x i = x ix0 :=
  broadcastInDim_apply ![] h x i ix0 fun ax => ax.elim0

variable {s : Shape} {φ : FTy}

theorem exp_apply (x : FVec Ideal s φ) (i : s.Idx) : exp x i = Ideal.exp (x i) := rfl
theorem log_apply (x : FVec Ideal s φ) (i : s.Idx) : log x i = Ideal.log (x i) := rfl
theorem hostExp_apply (x : FVec Ideal s φ) (i : s.Idx) : Host.exp x i = Ideal.exp (x i) := rfl
theorem hostLog_apply (x : FVec Ideal s φ) (i : s.Idx) : Host.log x i = Ideal.log (x i) := rfl

end Layout

/-! ## The kernel's arithmetic on one block, and the reference's on the whole array -/

/-- The kernel body's arithmetic on a block of 2000 rows, entry by entry: the log-softmax of the entry's row. -/
theorem pay_apply (x0 : FVec Ideal S2000x64 .f32) (p : Fin 2000) (j : Fin 64) :
    k2_pay1 (F := Ideal) x0 (ix2 p j) = rowLogSoftmax x0 p j := by
  unfold k2_pay1
  dsimp only
  rw [shapeCast_self]
  -- the block less its rows' maxima, at (p, k)
  have hs : ∀ k : Fin 64, subf x0 (broadcastTo S2000x64 (shapeCast S2000x1 (multiReduction .maximumf [1] S2000 x0
      0xFF800000#32 reduces_S2000x64_S2000 (.inl rfl) rfl) shapeCasts_S2000_S2000x1) broadcasts_S2000x1_S2000x64) (ix2 p k)
      = x0 (ix2 p k) - rowMax x0 p := by
    intro k
    rw [subf_apply, PhysLoss.broadcastTo_a1_ab_apply, PhysLoss.shapeCast_a_a1_apply]
    exact congrArg (fun m => x0 (ix2 p k) - m)
      (multiReduction_max_cols (a := 2000) (b := 64) x0 _ reduces_S2000x64_S2000 _ _ p)
  rw [subf_apply, hs j, PhysLoss.broadcastTo_a1_ab_apply, log_apply, PhysLoss.shapeCast_a_a1_apply]
  refine congrArg (fun m => x0 (ix2 p j) - rowMax x0 p - Ideal.log m) ?_
  refine (multiReduction_add_cols (a := 2000) (b := 64) _ _ reduces_S2000x64_S2000 _ _ p).trans ?_
  refine Finset.sum_congr rfl fun k _ => ?_
  rw [exp_apply, hs k]

/-- The reference's shifted array, entry by entry: the entry less its row's maximum (the maximum against −∞ of a
    fold of max from −∞ is that fold). -/
theorem shifted_apply (y : FVec Ideal Cert.ReferenceIdeal.S50000x64 .f32) (r : Fin 50000) (k : Fin 64) :
    shifted y (ix2 r k) = y (ix2 r k) - rowMax y r := by
  have hred : (⟨2, ![50000, 64]⟩ : Shape).Reduces [1] (⟨1, ![50000]⟩ : Shape) := by decide
  unfold shifted
  rw [subf_apply, broadcastInDim_a1_ab_apply, broadcastInDim_a_a1_apply, maximumf_apply, broadcastInDim_scalar_apply,
    hostReduce_max_cols _ _ _ hred]
  refine congrArg (fun m => y (ix2 r k) - m) ?_
  show max (Ideal.ofBits .f32 0xFF800000#32) (rowMax y r) = rowMax y r
  unfold rowMax
  exact max_eq_right ((Finset.le_fold_max _).mpr (Or.inl le_rfl))

/-- The reference's log-softmax, entry by entry. -/
theorem logSoftmax_apply (y : FVec Ideal Cert.ReferenceIdeal.S50000x64 .f32) (r : Fin 50000) (j : Fin 64) :
    logSoftmax y (ix2 r j) = rowLogSoftmax y r j := by
  have hred : (⟨2, ![50000, 64]⟩ : Shape).Reduces [1] (⟨1, ![50000]⟩ : Shape) := by decide
  unfold logSoftmax
  rw [subf_apply, broadcastInDim_a1_ab_apply, hostLog_apply, broadcastInDim_a_a1_apply,
    hostReduceAdd_cols _ _ _ hred, constant_apply, Ideal.ofBits_zero_f32, zero_add]
  simp only [hostExp_apply, shifted_apply]
  rfl

/-! ## From the blocks to the array

Point t of the grid of 25 handles rows 2000 t … 2000 t + 1999: its input block is those rows of the array the launch
finds, and what it writes back is those rows of the array's log-softmax, a row's result depending on that row only.
Row r is in the block of point r / 2000, so the blocks fill the array. -/

theorem zero_offsets : (![0, 0] : Fin 2 → Nat) = fun _ => 0 := funext fun a => by fin_cases a <;> rfl

/-- The printed index maps, decided over the grid: at point t both windows are at block (t, 0). -/
theorem block_index : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

section Region

variable (V : (c : Dev nD) → (b : Ref sig .tc) → Buf (Elt Ideal) ((c : Thread nD τ).loc b)) (c : Dev nD)

/-- The input block at point t is rows 2000 t … 2000 t + 1999 of the array the launch finds. -/
theorem inputBlock_apply (t : Fin cfg2.N) (y : S2000x64.Idx) (i : S50000x64.Idx)
    (h0 : (i 0).val = 2000 * t.val + (y 0).val) (h1 : (i 1).val = (y 1).val) :
    (iblk2 (F := Ideal) V c 0 t : Vec Ideal S2000x64 .f32) y = (V c main_v30 : S50000x64.Idx → EReal) i := by
  obtain ⟨e0, e1, -, -⟩ := block_index t
  unfold iblk2
  rw [View.read_apply]
  refine congrArg (V c main_v30 : S50000x64.Idx → EReal) ?_
  funext a
  apply Fin.ext
  match a with
  | ⟨0, _⟩ => show win2_0.index t (0 : Fin 2) * 2000 + 1 * (y 0).val = (i 0).val; omega
  | ⟨1, _⟩ => show win2_0.index t (1 : Fin 2) * 64 + 1 * (y 1).val = (i 1).val; omega

/-- What the body computes from point t's input block, at an entry of the block, is the log-softmax of the whole
    array at the entry's place in it: the entry's row of the block is that row of the array. -/
theorem outputBlock_apply (t : Fin cfg2.N) (j : S2000x64.Idx) (i : S50000x64.Idx)
    (h0 : (i 0).val = 2000 * t.val + (j 0).val) (h1 : (i 1).val = (j 1).val) :
    k2_pay1 (F := Ideal) (iblk2 (F := Ideal) V c 0 t) j = logSoftmax (V c main_v30) i := by
  obtain ⟨p, q, rfl⟩ : ∃ (p : Fin 2000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext h1
  refine (pay_apply (iblk2 (F := Ideal) V c 0 t) p s).trans ?_
  refine (rowLogSoftmax_congr (iblk2 (F := Ideal) V c 0 t) (V c main_v30) p r (fun k => ?_) s).trans
    (logSoftmax_apply (V c main_v30) r s).symm
  exact inputBlock_apply V c t (ix2 p k) (ix2 r k) h0 rfl

/-- What point t writes back is block t of the log-softmax of the array the launch finds. -/
theorem flushed_eq (t : Fin cfg2.N) :
    (dat2 (F := Ideal) V c).flushed 1 t = ((cfg2.win 1).blk t).view.read (Elt Ideal) (logSoftmax (V c main_v30)) := by
  show (cfg2.win 1).cut (grid2.coords t) ((dat2 (F := Ideal) V c).after 1 t) = _
  rw [after2_1]
  unfold out2_1
  rw [View.canon_unit_zero zero_offsets]
  simp only [View.ld_unit_zero (S := S2000x64) zero_offsets]
  obtain ⟨-, -, e2, e3⟩ := block_index t
  funext j
  show k2_pay1 (F := Ideal) (iblk2 (F := Ideal) V c 0 t) j = logSoftmax (V c main_v30) (((cfg2.win 1).blk t).view.emb j)
  refine outputBlock_apply V c t j _ ?_ ?_
  · show win2_1.index t (0 : Fin 2) * 2000 + 1 * (j 0).val = 2000 * t.val + (j 0).val; omega
  · show win2_1.index t (1 : Fin 2) * 64 + 1 * (j 1).val = (j 1).val; omega

end Region

/-- An index of the array is in point t's block iff each coordinate is in the block's range on its axis. -/
theorem mem_block (t : Fin cfg2.N) (i : S50000x64.Idx) :
    i ∈ ((cfg2.win 1).blk t).view.set ↔ ∀ a : Fin 2, win2_1.index t a * S2000x64.size a ≤ (i a).val
      ∧ (i a).val < win2_1.index t a * S2000x64.size a + S2000x64.size a := by
  show i ∈ ((View.whole main_v31).slice (win2_1.rect t)).set ↔ _
  rw [View.set_slice_whole, Rect.mem_set_unit]
  exact Iff.rfl

/-- Every index of the array is in some point's block: row r is in the block of point r / 2000. -/
theorem blocks_cover (i : S50000x64.Idx) :
    ∃ t : Fin cfg2.N, (cfg2.win 1).flush t = true ∧ i ∈ ((cfg2.win 1).blk t).view.set := by
  have hN : grid2.N = 25 := N_2
  have hi0 : (i 0).val < 50000 := (i 0).isLt
  have hi1 : (i 1).val < 64 := (i 1).isLt
  obtain ⟨t, ht⟩ : ∃ t : Fin cfg2.N, t.val = (i 0).val / 2000 :=
    ⟨⟨(i 0).val / 2000, by show (i 0).val / 2000 < grid2.N; omega⟩, rfl⟩
  obtain ⟨-, -, e2, e3⟩ := block_index t
  refine ⟨t, flush2_1 t, ?_⟩
  rw [mem_block]
  intro a
  match a with
  | ⟨0, _⟩ =>
    show win2_1.index t (0 : Fin 2) * 2000 ≤ (i 0).val ∧ (i 0).val < win2_1.index t (0 : Fin 2) * 2000 + 2000
    omega
  | ⟨1, _⟩ =>
    show win2_1.index t (1 : Fin 2) * 64 ≤ (i 1).val ∧ (i 1).val < win2_1.index t (1 : Fin 2) * 64 + 64
    omega

end Softmax

/-- After the third launch the output array is the row-wise log-softmax of the array the launch found: every block
    of 2000 rows holds those rows' log-softmax (a row's result depends on that row only), and the 25 blocks fill
    the 50000 rows. -/
theorem region2_array (V : (c : Dev nD) → (b : Ref sig .tc) → Buf (Elt Ideal) ((c : Thread nD τ).loc b)) (c : Dev nD) :
    ((dat2 (F := Ideal) V c).arrAt 1 cfg2.N : FVec Ideal S50000x64 .f32) = logSoftmax (V c main_v30) :=
  (dat2 (F := Ideal) V c).arrAt_eq_of_cover 1 (logSoftmax (V c main_v30)) (fun t _ => Softmax.flushed_eq V c t)
    Softmax.blocks_cover

end Cert.Gcn

end
-- ==== Proof.KernelChain.lean ====
/-
  The kernel's result array as the network of the arguments.

  Between the launch and the return the buffer contents pass eight boundaries. A stretch of host operations leaves
  every buffer it does not write as it found it, and a tiled launch leaves every buffer that is not one of its arrays
  as it found it, so each argument's buffer is read back through the boundaries to the launch memory. The buffers
  that ARE written are read forward: the bias as one row; the first dense layer (the first launch); the aggregation
  over the edges and the maximum with zero (host operations, the reference's own); the second dense layer (the
  second launch); the second aggregation; the row-wise log-softmax (the third launch).
-/
import proofs.«103311_j46179488366795_1_alg».proof.Proof.Stages
import proofs.«103311_j46179488366795_1_alg».proof.Proof.RegionDense
import proofs.«103311_j46179488366795_1_alg».proof.Proof.RegionSoftmax
import proofs.«103311_j46179488366795_1_alg».proof.Proof.Gen.KernelIdeal.Frame
import Idealize.ShloMosaic.Lib.StableHlo.Run

set_option maxRecDepth 16384

noncomputable section

namespace Cert.Gcn

open Idealize.ShloMosaic Idealize.ShloMosaic.TcCoe Idealize.SL.Sem Idealize.ShloMosaic.StableHlo
open Cert.KernelIdeal Cert.KernelIdeal.Gen

section Kept

variable {F : FTy → Type} [FloatOps F]

/-! ## What a stretch of host operations leaves alone -/

theorem keep0_main_arg0 (W : Valuation τ sig (Elt F)) : StableHlo.after hostOps0 W (Proc.devRef .tc main_arg0) = W (Proc.devRef .tc main_arg0) := by
  after_results
theorem keep0_main_arg1 (W : Valuation τ sig (Elt F)) : StableHlo.after hostOps0 W (Proc.devRef .tc main_arg1) = W (Proc.devRef .tc main_arg1) := by
  after_results
theorem keep0_main_arg2 (W : Valuation τ sig (Elt F)) : StableHlo.after hostOps0 W (Proc.devRef .tc main_arg2) = W (Proc.devRef .tc main_arg2) := by
  after_results
theorem keep0_main_arg3 (W : Valuation τ sig (Elt F)) : StableHlo.after hostOps0 W (Proc.devRef .tc main_arg3) = W (Proc.devRef .tc main_arg3) := by
  after_results
theorem keep0_main_arg4 (W : Valuation τ sig (Elt F)) : StableHlo.after hostOps0 W (Proc.devRef .tc main_arg4) = W (Proc.devRef .tc main_arg4) := by
  after_results
theorem keep0_main_arg6 (W : Valuation τ sig (Elt F)) : StableHlo.after hostOps0 W (Proc.devRef .tc main_arg6) = W (Proc.devRef .tc main_arg6) := by
  after_results
theorem keep0_main_arg7 (W : Valuation τ sig (Elt F)) : StableHlo.after hostOps0 W (Proc.devRef .tc main_arg7) = W (Proc.devRef .tc main_arg7) := by
  after_results
theorem keep1_main_arg1 (W : Valuation τ sig (Elt F)) : StableHlo.after hostOps1 W (Proc.devRef .tc main_arg1) = W (Proc.devRef .tc main_arg1) := by
  after_results
theorem keep1_main_arg2 (W : Valuation τ sig (Elt F)) : StableHlo.after hostOps1 W (Proc.devRef .tc main_arg2) = W (Proc.devRef .tc main_arg2) := by
  after_results
theorem keep1_main_arg3 (W : Valuation τ sig (Elt F)) : StableHlo.after hostOps1 W (Proc.devRef .tc main_arg3) = W (Proc.devRef .tc main_arg3) := by
  after_results
theorem keep1_main_arg6 (W : Valuation τ sig (Elt F)) : StableHlo.after hostOps1 W (Proc.devRef .tc main_arg6) = W (Proc.devRef .tc main_arg6) := by
  after_results
theorem keep1_main_arg7 (W : Valuation τ sig (Elt F)) : StableHlo.after hostOps1 W (Proc.devRef .tc main_arg7) = W (Proc.devRef .tc main_arg7) := by
  after_results
theorem keep1_1_main_arg1 (W : Valuation τ sig (Elt F)) : StableHlo.after hostOps1_1 W (Proc.devRef .tc main_arg1) = W (Proc.devRef .tc main_arg1) := by
  after_results
theorem keep1_1_main_arg2 (W : Valuation τ sig (Elt F)) : StableHlo.after hostOps1_1 W (Proc.devRef .tc main_arg2) = W (Proc.devRef .tc main_arg2) := by
  after_results
theorem keep1_1_main_arg3 (W : Valuation τ sig (Elt F)) : StableHlo.after hostOps1_1 W (Proc.devRef .tc main_arg3) = W (Proc.devRef .tc main_arg3) := by
  after_results
theorem keep1_1_main_arg6 (W : Valuation τ sig (Elt F)) : StableHlo.after hostOps1_1 W (Proc.devRef .tc main_arg6) = W (Proc.devRef .tc main_arg6) := by
  after_results
theorem keep1_1_main_arg7 (W : Valuation τ sig (Elt F)) : StableHlo.after hostOps1_1 W (Proc.devRef .tc main_arg7) = W (Proc.devRef .tc main_arg7) := by
  after_results
theorem keep1_2_main_arg1 (W : Valuation τ sig (Elt F)) : StableHlo.after hostOps1_2 W (Proc.devRef .tc main_arg1) = W (Proc.devRef .tc main_arg1) := by
  after_results
theorem keep1_2_main_arg2 (W : Valuation τ sig (Elt F)) : StableHlo.after hostOps1_2 W (Proc.devRef .tc main_arg2) = W (Proc.devRef .tc main_arg2) := by
  after_results
theorem keep1_2_main_arg3 (W : Valuation τ sig (Elt F)) : StableHlo.after hostOps1_2 W (Proc.devRef .tc main_arg3) = W (Proc.devRef .tc main_arg3) := by
  after_results
theorem keep1_2_main_arg6 (W : Valuation τ sig (Elt F)) : StableHlo.after hostOps1_2 W (Proc.devRef .tc main_arg6) = W (Proc.devRef .tc main_arg6) := by
  after_results
theorem keep1_2_main_v15 (W : Valuation τ sig (Elt F)) : StableHlo.after hostOps1_2 W (Proc.devRef .tc main_v15) = W (Proc.devRef .tc main_v15) := by
  after_results

variable (m : (ℓ : Loc nD τ sig) → Buf (Elt F) ℓ) (ρ : Dev nD → PrngReg)

/-! ## The arguments' buffers at the boundaries where they are read -/

theorem W1_main_arg0 (c : Dev nD) : W1 m ρ c (Proc.devRef .tc main_arg0) = m ((c.tc : Thread nD τ).loc main_arg0) := (keep0_main_arg0 _).trans rfl
theorem W1_main_arg4 (c : Dev nD) : W1 m ρ c (Proc.devRef .tc main_arg4) = m ((c.tc : Thread nD τ).loc main_arg4) := (keep0_main_arg4 _).trans rfl
theorem W2_main_arg1 (c : Dev nD) : W2 m ρ c (Proc.devRef .tc main_arg1) = m ((c.tc : Thread nD τ).loc main_arg1) := (W2_of_ne m ρ c main_arg1 (by decide)).trans ((keep0_main_arg1 _).trans rfl)
theorem W3_main_arg1 (c : Dev nD) : W3 m ρ c (Proc.devRef .tc main_arg1) = m ((c.tc : Thread nD τ).loc main_arg1) := (keep1_main_arg1 _).trans (W2_main_arg1 m ρ c)
theorem W4_main_arg1 (c : Dev nD) : W4 m ρ c (Proc.devRef .tc main_arg1) = m ((c.tc : Thread nD τ).loc main_arg1) := (keep1_1_main_arg1 _).trans (W3_main_arg1 m ρ c)
theorem W2_main_arg2 (c : Dev nD) : W2 m ρ c (Proc.devRef .tc main_arg2) = m ((c.tc : Thread nD τ).loc main_arg2) := (W2_of_ne m ρ c main_arg2 (by decide)).trans ((keep0_main_arg2 _).trans rfl)
theorem W3_main_arg2 (c : Dev nD) : W3 m ρ c (Proc.devRef .tc main_arg2) = m ((c.tc : Thread nD τ).loc main_arg2) := (keep1_main_arg2 _).trans (W2_main_arg2 m ρ c)
theorem W4_main_arg2 (c : Dev nD) : W4 m ρ c (Proc.devRef .tc main_arg2) = m ((c.tc : Thread nD τ).loc main_arg2) := (keep1_1_main_arg2 _).trans (W3_main_arg2 m ρ c)
theorem W2_main_arg3 (c : Dev nD) : W2 m ρ c (Proc.devRef .tc main_arg3) = m ((c.tc : Thread nD τ).loc main_arg3) := (W2_of_ne m ρ c main_arg3 (by decide)).trans ((keep0_main_arg3 _).trans rfl)
theorem W3_main_arg3 (c : Dev nD) : W3 m ρ c (Proc.devRef .tc main_arg3) = m ((c.tc : Thread nD τ).loc main_arg3) := (keep1_main_arg3 _).trans (W2_main_arg3 m ρ c)
theorem W4_main_arg3 (c : Dev nD) : W4 m ρ c (Proc.devRef .tc main_arg3) = m ((c.tc : Thread nD τ).loc main_arg3) := (keep1_1_main_arg3 _).trans (W3_main_arg3 m ρ c)
theorem W2_main_arg6 (c : Dev nD) : W2 m ρ c (Proc.devRef .tc main_arg6) = m ((c.tc : Thread nD τ).loc main_arg6) := (W2_of_ne m ρ c main_arg6 (by decide)).trans ((keep0_main_arg6 _).trans rfl)
theorem W3_main_arg6 (c : Dev nD) : W3 m ρ c (Proc.devRef .tc main_arg6) = m ((c.tc : Thread nD τ).loc main_arg6) := (keep1_main_arg6 _).trans (W2_main_arg6 m ρ c)
theorem W4_main_arg6 (c : Dev nD) : W4 m ρ c (Proc.devRef .tc main_arg6) = m ((c.tc : Thread nD τ).loc main_arg6) := (keep1_1_main_arg6 _).trans (W3_main_arg6 m ρ c)
theorem W2_main_arg7 (c : Dev nD) : W2 m ρ c (Proc.devRef .tc main_arg7) = m ((c.tc : Thread nD τ).loc main_arg7) := (W2_of_ne m ρ c main_arg7 (by decide)).trans ((keep0_main_arg7 _).trans rfl)
theorem W3_main_arg7 (c : Dev nD) : W3 m ρ c (Proc.devRef .tc main_arg7) = m ((c.tc : Thread nD τ).loc main_arg7) := (keep1_main_arg7 _).trans (W2_main_arg7 m ρ c)
theorem W4_main_arg7 (c : Dev nD) : W4 m ρ c (Proc.devRef .tc main_arg7) = m ((c.tc : Thread nD τ).loc main_arg7) := (keep1_1_main_arg7 _).trans (W3_main_arg7 m ρ c)
theorem W5_main_arg1 (c : Dev nD) : W5 m ρ c (Proc.devRef .tc main_arg1) = m ((c.tc : Thread nD τ).loc main_arg1) := (keep1_2_main_arg1 _).trans (W4_main_arg1 m ρ c)
theorem W5_main_arg2 (c : Dev nD) : W5 m ρ c (Proc.devRef .tc main_arg2) = m ((c.tc : Thread nD τ).loc main_arg2) := (keep1_2_main_arg2 _).trans (W4_main_arg2 m ρ c)
theorem W5_main_arg3 (c : Dev nD) : W5 m ρ c (Proc.devRef .tc main_arg3) = m ((c.tc : Thread nD τ).loc main_arg3) := (keep1_2_main_arg3 _).trans (W4_main_arg3 m ρ c)
theorem W5_main_arg6 (c : Dev nD) : W5 m ρ c (Proc.devRef .tc main_arg6) = m ((c.tc : Thread nD τ).loc main_arg6) := (keep1_2_main_arg6 _).trans (W4_main_arg6 m ρ c)
theorem W6_main_arg1 (c : Dev nD) : W6 m ρ c (Proc.devRef .tc main_arg1) = m ((c.tc : Thread nD τ).loc main_arg1) := (W6_of_ne m ρ c main_arg1 (by decide)).trans (W5_main_arg1 m ρ c)
theorem W6_main_arg2 (c : Dev nD) : W6 m ρ c (Proc.devRef .tc main_arg2) = m ((c.tc : Thread nD τ).loc main_arg2) := (W6_of_ne m ρ c main_arg2 (by decide)).trans (W5_main_arg2 m ρ c)
theorem W6_main_arg3 (c : Dev nD) : W6 m ρ c (Proc.devRef .tc main_arg3) = m ((c.tc : Thread nD τ).loc main_arg3) := (W6_of_ne m ρ c main_arg3 (by decide)).trans (W5_main_arg3 m ρ c)

end Kept

/-! ## What the stretches of host operations write, at the ideal values -/

/-- The first stretch lays the first bias out as one row. -/
theorem stretch0_bias (W : Valuation τ sig (Elt Ideal)) :
    (StableHlo.after hostOps0 W (Proc.devRef .tc main_v0) : FVec Ideal S1x256 .f32)
      = shapeCast S1x256 (W (Proc.devRef .tc main_arg5)) shapeCasts_S256_S1x256 := by
  after_results; rfl

/-- The stretch after the first launch is the aggregation over the edges of the first launch's result. -/
theorem stretch1_value (W : Valuation τ sig (Elt Ideal)) :
    (StableHlo.after hostOps1 W (Proc.devRef .tc main_v14) : FVec Ideal S50000x256 .f32)
      = aggregate1 (W (Proc.devRef .tc main_arg1)) (W (Proc.devRef .tc main_arg2)) (W (Proc.devRef .tc main_arg3)) (W (Proc.devRef .tc main_v1)) := by
  after_results; rfl

/-- The next stretch is the maximum with zero. -/
theorem stretch1_1_value (W : Valuation τ sig (Elt Ideal)) :
    (StableHlo.after hostOps1_1 W (Proc.devRef .tc main_v15) : FVec Ideal S50000x256 .f32) = relu1 (W (Proc.devRef .tc main_v14)) := by
  after_results; rfl

/-- The stretch before the second launch lays the second bias out as one row. -/
theorem stretch1_2_bias (W : Valuation τ sig (Elt Ideal)) :
    (StableHlo.after hostOps1_2 W (Proc.devRef .tc main_v16) : FVec Ideal S1x64 .f32)
      = shapeCast S1x64 (W (Proc.devRef .tc main_arg7)) shapeCasts_S64_S1x64 := by
  after_results; rfl

/-- The stretch after the second launch is the aggregation over the edges of the second launch's result. -/
theorem stretch2_value (W : Valuation τ sig (Elt Ideal)) :
    (StableHlo.after hostOps2 W (Proc.devRef .tc main_v30) : FVec Ideal S50000x64 .f32)
      = aggregate2 (W (Proc.devRef .tc main_arg1)) (W (Proc.devRef .tc main_arg2)) (W (Proc.devRef .tc main_arg3)) (W (Proc.devRef .tc main_v17)) := by
  after_results; rfl

/-! ## The chain -/

variable (m : (ℓ : Loc nD τ sig) → Buf (Elt Ideal) ℓ) (ρ : Dev nD → PrngReg)

/-- After the first launch: the first dense layer of the arguments. -/
theorem first_layer (c : Dev nD) :
    (W2 m ρ c (Proc.devRef .tc main_v1) : FVec Ideal S50000x256 .f32)
      = dense1 (m ((c.tc : Thread nD τ).loc main_arg0)) (m ((c.tc : Thread nD τ).loc main_arg4)) (m ((c.tc : Thread nD τ).loc main_arg5)) := by
  have hb : (V1 m ρ c main_v0 : FVec Ideal S1x256 .f32) = shapeCast S1x256 (m ((c.tc : Thread nD τ).loc main_arg5)) shapeCasts_S256_S1x256 :=
    stretch0_bias (W0 m ρ c)
  have e0 : V1 m ρ c main_arg0 = (m ((c.tc : Thread nD τ).loc main_arg0)) := W1_main_arg0 m ρ c
  have e4 : V1 m ρ c main_arg4 = (m ((c.tc : Thread nD τ).loc main_arg4)) := W1_main_arg4 m ρ c
  refine (W2_arr m ρ c 3).trans ((region0_array (V1 m ρ) c _ hb).trans ?_)
  rw [e0, e4]

/-- Before the second launch: the aggregation of the first layer, cut at zero. -/
theorem hidden (c : Dev nD) :
    (W5 m ρ c (Proc.devRef .tc main_v15) : FVec Ideal S50000x256 .f32)
      = relu1 (aggregate1 (m ((c.tc : Thread nD τ).loc main_arg1)) (m ((c.tc : Thread nD τ).loc main_arg2)) (m ((c.tc : Thread nD τ).loc main_arg3))
          (dense1 (m ((c.tc : Thread nD τ).loc main_arg0)) (m ((c.tc : Thread nD τ).loc main_arg4)) (m ((c.tc : Thread nD τ).loc main_arg5)))) := by
  refine (keep1_2_main_v15 (W4 m ρ c)).trans ((stretch1_1_value (W3 m ρ c)).trans ?_)
  refine congrArg relu1 ((stretch1_value (W2 m ρ c)).trans ?_)
  rw [W2_main_arg1 m ρ c, W2_main_arg2 m ρ c, W2_main_arg3 m ρ c, first_layer m ρ c]

/-- After the second launch: the second dense layer of the hidden array. -/
theorem second_layer (c : Dev nD) :
    (W6 m ρ c (Proc.devRef .tc main_v17) : FVec Ideal S50000x64 .f32)
      = dense2 (relu1 (aggregate1 (m ((c.tc : Thread nD τ).loc main_arg1)) (m ((c.tc : Thread nD τ).loc main_arg2)) (m ((c.tc : Thread nD τ).loc main_arg3))
          (dense1 (m ((c.tc : Thread nD τ).loc main_arg0)) (m ((c.tc : Thread nD τ).loc main_arg4)) (m ((c.tc : Thread nD τ).loc main_arg5))))) (m ((c.tc : Thread nD τ).loc main_arg6)) (m ((c.tc : Thread nD τ).loc main_arg7)) := by
  have hb : (V5 m ρ c main_v16 : FVec Ideal S1x64 .f32) = shapeCast S1x64 (m ((c.tc : Thread nD τ).loc main_arg7)) shapeCasts_S64_S1x64 :=
    (stretch1_2_bias (W4 m ρ c)).trans (by rw [W4_main_arg7 m ρ c])
  have e15 : (V5 m ρ c main_v15 : FVec Ideal S50000x256 .f32) = _ := hidden m ρ c
  have e6 : V5 m ρ c main_arg6 = (m ((c.tc : Thread nD τ).loc main_arg6)) := W5_main_arg6 m ρ c
  refine (W6_arr m ρ c 3).trans ((region1_array (V5 m ρ) c _ hb).trans ?_)
  rw [e15, e6]

/-- At the return: the result array is the network of the arguments. -/
theorem result_value (c : Dev nD) :
    (W8 m ρ c (Proc.devRef .tc main_v31) : FVec Ideal S50000x64 .f32)
      = network (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  have e30 : (V7 m ρ c main_v30 : FVec Ideal S50000x64 .f32)
      = aggregate2 (m ((c.tc : Thread nD τ).loc main_arg1)) (m ((c.tc : Thread nD τ).loc main_arg2)) (m ((c.tc : Thread nD τ).loc main_arg3)) (W6 m ρ c (Proc.devRef .tc main_v17)) :=
    (stretch2_value (W6 m ρ c)).trans (by rw [W6_main_arg1 m ρ c, W6_main_arg2 m ρ c, W6_main_arg3 m ρ c])
  refine (W8_arr m ρ c 1).trans ((region2_array (V7 m ρ) c).trans ?_)
  rw [e30, second_layer m ρ c]
  rfl

end Cert.Gcn

end
-- ==== Proof.ReferenceRun.lean ====
/-
  The reference's run, read in five stretches.

  The reference's @main is a straight line of 58 host operations. Cut into the first dense layer, the first
  aggregation with the maximum with zero, the second dense layer, the second aggregation and the log-softmax, each
  stretch writes its result as the stage of the same name applied to the buffers it reads, whatever the contents it
  starts from, and leaves the argument buffers alone; composed, the result buffer ends at the network of the
  launch contents of the arguments. Every weakly fair execution terminates there, the arguments unchanged.
-/
import proofs.«103311_j46179488366795_1_alg».proof.Proof.Stages
import proofs.«103311_j46179488366795_1_alg».proof.Proof.RefOps
import Idealize.ShloMosaic.Lib.StableHlo.Run
import Idealize.ShloMosaic.Lib.Pipeline.Frame

set_option maxRecDepth 16384

noncomputable section

namespace Cert.Gcn.Ref

open Cert.ReferenceIdeal Cert.ReferenceIdeal.Gen Cert.ReferenceIdeal.Value
open Idealize.ShloMosaic Idealize.ShloMosaic.TcCoe Idealize.SL.Sem Idealize.ShloMosaic.StableHlo
open Cert.Gcn

section Stretches

variable {F : FTy → Type} [FloatOps F]

/-- The first dense layer's four operations. -/
abbrev ops1 : List (HloOp τ sig (Elt F)) :=
  [ binary main_arg0 main_arg4 main_v0 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg5 main_v1 (broadcastInDim S1x256 ![1] bcast_S256_S1x256_1 : (⟨S256, .f32⟩ : BufTy).Contents (Elt F) → (⟨S1x256, .f32⟩ : BufTy).Contents (Elt F)),
    unary main_v1 main_v2 (broadcastInDim S50000x256 ![0, 1] bcast_S1x256_S50000x256_0_1 : (⟨S1x256, .f32⟩ : BufTy).Contents (Elt F) → (⟨S50000x256, .f32⟩ : BufTy).Contents (Elt F)),
    binary main_v0 main_v2 main_v3 (addf : (⟨S50000x256, .f32⟩ : BufTy).Contents (Elt F) → (⟨S50000x256, .f32⟩ : BufTy).Contents (Elt F) → (⟨S50000x256, .f32⟩ : BufTy).Contents (Elt F)) ]
/-- The first aggregation over the edges. -/
abbrev ops2a : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_arg2 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_arg2 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_arg2 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_v3 main_v9 main_v10 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_arg3 main_v11 (broadcastInDim S800000x1 ![0] bcast_S800000_S800000x1_0 : (⟨S800000, .f32⟩ : BufTy).Contents (Elt F) → (⟨S800000x1, .f32⟩ : BufTy).Contents (Elt F)),
    unary main_v11 main_v12 (broadcastInDim S800000x256 ![0, 1] bcast_S800000x1_S800000x256_0_1 : (⟨S800000x1, .f32⟩ : BufTy).Contents (Elt F) → (⟨S800000x256, .f32⟩ : BufTy).Contents (Elt F)),
    binary main_v10 main_v12 main_v13 (mulf : (⟨S800000x256, .f32⟩ : BufTy).Contents (Elt F) → (⟨S800000x256, .f32⟩ : BufTy).Contents (Elt F) → (⟨S800000x256, .f32⟩ : BufTy).Contents (Elt F)),
    nullary main_cst (constant S_ .f32 0x00000000#32),
    unary main_cst main_v14 (broadcastInDim S50000x256 ![] bcast_S_S50000x256 : (⟨S_, .f32⟩ : BufTy).Contents (Elt F) → (⟨S50000x256, .f32⟩ : BufTy).Contents (Elt F)),
    unary main_arg1 main_v15 (broadcastInDim S800000x1 ![0] bcast_S800000_S800000x1_0 : (⟨S800000, .i32⟩ : BufTy).Contents (Elt F) → (⟨S800000x1, .i32⟩ : BufTy).Contents (Elt F)),
    ternary main_v14 main_v15 main_v13 main_v16 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]
/-- The maximum with zero. -/
abbrev ops2b : List (HloOp τ sig (Elt F)) :=
  [ nullary main_call0_cst ((constant S_ .f32 0x00000000#32) : (⟨S_, .f32⟩ : BufTy).Contents (Elt F)),
    unary main_call0_cst main_call0_v0 ((broadcastInDim S50000x256 ![] bcast_S_S50000x256) : (⟨S_, .f32⟩ : BufTy).Contents (Elt F) → (⟨S50000x256, .f32⟩ : BufTy).Contents (Elt F)),
    binary main_v16 main_call0_v0 main_v17 ((maximumf) : (⟨S50000x256, .f32⟩ : BufTy).Contents (Elt F) → (⟨S50000x256, .f32⟩ : BufTy).Contents (Elt F) → (⟨S50000x256, .f32⟩ : BufTy).Contents (Elt F)) ]
/-- The second dense layer's four operations. -/
abbrev ops3 : List (HloOp τ sig (Elt F)) :=
  [ binary main_v17 main_arg6 main_v18 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg7 main_v19 (broadcastInDim S1x64 ![1] bcast_S64_S1x64_1 : (⟨S64, .f32⟩ : BufTy).Contents (Elt F) → (⟨S1x64, .f32⟩ : BufTy).Contents (Elt F)),
    unary main_v19 main_v20 (broadcastInDim S50000x64 ![0, 1] bcast_S1x64_S50000x64_0_1 : (⟨S1x64, .f32⟩ : BufTy).Contents (Elt F) → (⟨S50000x64, .f32⟩ : BufTy).Contents (Elt F)),
    binary main_v18 main_v20 main_v21 (addf : (⟨S50000x64, .f32⟩ : BufTy).Contents (Elt F) → (⟨S50000x64, .f32⟩ : BufTy).Contents (Elt F) → (⟨S50000x64, .f32⟩ : BufTy).Contents (Elt F)) ]
/-- The second aggregation over the edges. -/
abbrev ops4 : List (HloOp τ sig (Elt F)) :=
  [ nullary main_c_1 (constantI S_ 32 0#32),
    unary main_c_1 main_v22 (broadcastInDim S800000 ![] bcast_S_S800000 : (⟨S_, .i32⟩ : BufTy).Contents (Elt F) → (⟨S800000, .i32⟩ : BufTy).Contents (Elt F)),
    binary main_arg2 main_v22 main_v23 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v24 (broadcastInDim S800000 ![] bcast_S_S800000 : (⟨S_, .i32⟩ : BufTy).Contents (Elt F) → (⟨S800000, .i32⟩ : BufTy).Contents (Elt F)),
    binary main_arg2 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_arg2 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v21 main_v27 main_v28 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg3 main_v29 (broadcastInDim S800000x1 ![0] bcast_S800000_S800000x1_0 : (⟨S800000, .f32⟩ : BufTy).Contents (Elt F) → (⟨S800000x1, .f32⟩ : BufTy).Contents (Elt F)),
    unary main_v29 main_v30 (broadcastInDim S800000x64 ![0, 1] bcast_S800000x1_S800000x64_0_1 : (⟨S800000x1, .f32⟩ : BufTy).Contents (Elt F) → (⟨S800000x64, .f32⟩ : BufTy).Contents (Elt F)),
    binary main_v28 main_v30 main_v31 (mulf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x00000000#32),
    unary main_cst_3 main_v32 (broadcastInDim S50000x64 ![] bcast_S_S50000x64 : (⟨S_, .f32⟩ : BufTy).Contents (Elt F) → (⟨S50000x64, .f32⟩ : BufTy).Contents (Elt F)),
    unary main_arg1 main_v33 (broadcastInDim S800000x1 ![0] bcast_S800000_S800000x1_0 : (⟨S800000, .i32⟩ : BufTy).Contents (Elt F) → (⟨S800000x1, .i32⟩ : BufTy).Contents (Elt F)),
    ternary main_v32 main_v33 main_v31 main_v34 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]
/-- The log-softmax's shifted rows. -/
abbrev ops5a : List (HloOp τ sig (Elt F)) :=
  [ nullary main_call1_cst ((constant S_ .f32 0xFF800000#32) : (⟨S_, .f32⟩ : BufTy).Contents (Elt F)),
    binary main_v34 main_call1_cst main_call1_v0 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    nullary main_call1_cst_0 ((constant S_ .f32 0xFF800000#32) : (⟨S_, .f32⟩ : BufTy).Contents (Elt F)),
    unary main_call1_cst_0 main_call1_v1 ((broadcastInDim S50000 ![] bcast_S_S50000) : (⟨S_, .f32⟩ : BufTy).Contents (Elt F) → (⟨S50000, .f32⟩ : BufTy).Contents (Elt F)),
    binary main_call1_v1 main_call1_v0 main_call1_v2 ((maximumf) : (⟨S50000, .f32⟩ : BufTy).Contents (Elt F) → (⟨S50000, .f32⟩ : BufTy).Contents (Elt F) → (⟨S50000, .f32⟩ : BufTy).Contents (Elt F)),
    unary main_call1_v2 main_call1_v3 ((broadcastInDim S50000x1 ![0] bcast_S50000_S50000x1_0) : (⟨S50000, .f32⟩ : BufTy).Contents (Elt F) → (⟨S50000x1, .f32⟩ : BufTy).Contents (Elt F)),
    unary main_call1_v3 main_call1_v4 ((broadcastInDim S50000x64 ![0, 1] bcast_S50000x1_S50000x64_0_1) : (⟨S50000x1, .f32⟩ : BufTy).Contents (Elt F) → (⟨S50000x64, .f32⟩ : BufTy).Contents (Elt F)),
    binary main_v34 main_call1_v4 main_call1_v5 ((subf) : (⟨S50000x64, .f32⟩ : BufTy).Contents (Elt F) → (⟨S50000x64, .f32⟩ : BufTy).Contents (Elt F) → (⟨S50000x64, .f32⟩ : BufTy).Contents (Elt F)) ]
/-- The log-softmax's logarithm of the row sums, taken off the shifted rows. -/
abbrev ops5b : List (HloOp τ sig (Elt F)) :=
  [ unary main_call1_v5 main_call1_v6 ((Host.exp) : (⟨S50000x64, .f32⟩ : BufTy).Contents (Elt F) → (⟨S50000x64, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_call1_v7 main_call1_v8 ((broadcastInDim S50000x1 ![0] bcast_S50000_S50000x1_0) : (⟨S50000, .f32⟩ : BufTy).Contents (Elt F) → (⟨S50000x1, .f32⟩ : BufTy).Contents (Elt F)),
    unary main_call1_v8 main_call1_v9 ((Host.log) : (⟨S50000x1, .f32⟩ : BufTy).Contents (Elt F) → (⟨S50000x1, .f32⟩ : BufTy).Contents (Elt F)),
    unary main_call1_v9 main_call1_v10 ((broadcastInDim S50000x64 ![0, 1] bcast_S50000x1_S50000x64_0_1) : (⟨S50000x1, .f32⟩ : BufTy).Contents (Elt F) → (⟨S50000x64, .f32⟩ : BufTy).Contents (Elt F)),
    binary main_call1_v5 main_call1_v10 main_v35 ((subf) : (⟨S50000x64, .f32⟩ : BufTy).Contents (Elt F) → (⟨S50000x64, .f32⟩ : BufTy).Contents (Elt F) → (⟨S50000x64, .f32⟩ : BufTy).Contents (Elt F)) ]

/-- The log-softmax's row-maximum operation on its buffers directly: its typed references' transports are identities,
    whatever the function. -/
theorem rowMax_op_plain (f : (⟨S50000x64, .f32⟩ : BufTy).Contents (Elt F) → (⟨S_, .f32⟩ : BufTy).Contents (Elt F) → (⟨S50000, .f32⟩ : BufTy).Contents (Elt F)) :
    (TRef.binary (TRef.of (T := ⟨S50000x64, .f32⟩) main_v34) (TRef.of (T := ⟨S_, .f32⟩) main_call1_cst) (TRef.of (T := ⟨S50000, .f32⟩) main_call1_v0) f : HloOp τ sig (Elt F))
      = binary main_v34 main_call1_cst main_call1_v0 f := rfl

set_option maxRecDepth 16384 in
/-- The 58 operations are the seven stretches in order (an operation of a called function is spelt in the stretches
    on its buffers directly; its typed references' transports are identities). -/
theorem ops_split : (ops : List (HloOp τ sig (Elt F))) = ops1 ++ (ops2a ++ (ops2b ++ (ops3 ++ (ops4 ++ (ops5a ++ (ops5b)))))) := by
  unfold ops
  rw [rowMax_op_plain]
  rfl

/-! ## What a stretch leaves alone: no stretch writes an argument's buffer -/

theorem kept_ops1_main_arg0 (W : Valuation τ sig (Elt F)) : after ops1 W (Proc.devRef .tc main_arg0) = W (Proc.devRef .tc main_arg0) := by
  after_results
theorem kept_ops1_main_arg1 (W : Valuation τ sig (Elt F)) : after ops1 W (Proc.devRef .tc main_arg1) = W (Proc.devRef .tc main_arg1) := by
  after_results
theorem kept_ops1_main_arg2 (W : Valuation τ sig (Elt F)) : after ops1 W (Proc.devRef .tc main_arg2) = W (Proc.devRef .tc main_arg2) := by
  after_results
theorem kept_ops1_main_arg3 (W : Valuation τ sig (Elt F)) : after ops1 W (Proc.devRef .tc main_arg3) = W (Proc.devRef .tc main_arg3) := by
  after_results
theorem kept_ops1_main_arg4 (W : Valuation τ sig (Elt F)) : after ops1 W (Proc.devRef .tc main_arg4) = W (Proc.devRef .tc main_arg4) := by
  after_results
theorem kept_ops1_main_arg5 (W : Valuation τ sig (Elt F)) : after ops1 W (Proc.devRef .tc main_arg5) = W (Proc.devRef .tc main_arg5) := by
  after_results
theorem kept_ops1_main_arg6 (W : Valuation τ sig (Elt F)) : after ops1 W (Proc.devRef .tc main_arg6) = W (Proc.devRef .tc main_arg6) := by
  after_results
theorem kept_ops1_main_arg7 (W : Valuation τ sig (Elt F)) : after ops1 W (Proc.devRef .tc main_arg7) = W (Proc.devRef .tc main_arg7) := by
  after_results
theorem kept_ops2a_main_arg0 (W : Valuation τ sig (Elt F)) : after ops2a W (Proc.devRef .tc main_arg0) = W (Proc.devRef .tc main_arg0) := by
  after_results
theorem kept_ops2a_main_arg1 (W : Valuation τ sig (Elt F)) : after ops2a W (Proc.devRef .tc main_arg1) = W (Proc.devRef .tc main_arg1) := by
  after_results
theorem kept_ops2a_main_arg2 (W : Valuation τ sig (Elt F)) : after ops2a W (Proc.devRef .tc main_arg2) = W (Proc.devRef .tc main_arg2) := by
  after_results
theorem kept_ops2a_main_arg3 (W : Valuation τ sig (Elt F)) : after ops2a W (Proc.devRef .tc main_arg3) = W (Proc.devRef .tc main_arg3) := by
  after_results
theorem kept_ops2a_main_arg4 (W : Valuation τ sig (Elt F)) : after ops2a W (Proc.devRef .tc main_arg4) = W (Proc.devRef .tc main_arg4) := by
  after_results
theorem kept_ops2a_main_arg5 (W : Valuation τ sig (Elt F)) : after ops2a W (Proc.devRef .tc main_arg5) = W (Proc.devRef .tc main_arg5) := by
  after_results
theorem kept_ops2a_main_arg6 (W : Valuation τ sig (Elt F)) : after ops2a W (Proc.devRef .tc main_arg6) = W (Proc.devRef .tc main_arg6) := by
  after_results
theorem kept_ops2a_main_arg7 (W : Valuation τ sig (Elt F)) : after ops2a W (Proc.devRef .tc main_arg7) = W (Proc.devRef .tc main_arg7) := by
  after_results
theorem kept_ops2b_main_arg0 (W : Valuation τ sig (Elt F)) : after ops2b W (Proc.devRef .tc main_arg0) = W (Proc.devRef .tc main_arg0) := by
  after_results
theorem kept_ops2b_main_arg1 (W : Valuation τ sig (Elt F)) : after ops2b W (Proc.devRef .tc main_arg1) = W (Proc.devRef .tc main_arg1) := by
  after_results
theorem kept_ops2b_main_arg2 (W : Valuation τ sig (Elt F)) : after ops2b W (Proc.devRef .tc main_arg2) = W (Proc.devRef .tc main_arg2) := by
  after_results
theorem kept_ops2b_main_arg3 (W : Valuation τ sig (Elt F)) : after ops2b W (Proc.devRef .tc main_arg3) = W (Proc.devRef .tc main_arg3) := by
  after_results
theorem kept_ops2b_main_arg4 (W : Valuation τ sig (Elt F)) : after ops2b W (Proc.devRef .tc main_arg4) = W (Proc.devRef .tc main_arg4) := by
  after_results
theorem kept_ops2b_main_arg5 (W : Valuation τ sig (Elt F)) : after ops2b W (Proc.devRef .tc main_arg5) = W (Proc.devRef .tc main_arg5) := by
  after_results
theorem kept_ops2b_main_arg6 (W : Valuation τ sig (Elt F)) : after ops2b W (Proc.devRef .tc main_arg6) = W (Proc.devRef .tc main_arg6) := by
  after_results
theorem kept_ops2b_main_arg7 (W : Valuation τ sig (Elt F)) : after ops2b W (Proc.devRef .tc main_arg7) = W (Proc.devRef .tc main_arg7) := by
  after_results
theorem kept_ops3_main_arg0 (W : Valuation τ sig (Elt F)) : after ops3 W (Proc.devRef .tc main_arg0) = W (Proc.devRef .tc main_arg0) := by
  after_results
theorem kept_ops3_main_arg1 (W : Valuation τ sig (Elt F)) : after ops3 W (Proc.devRef .tc main_arg1) = W (Proc.devRef .tc main_arg1) := by
  after_results
theorem kept_ops3_main_arg2 (W : Valuation τ sig (Elt F)) : after ops3 W (Proc.devRef .tc main_arg2) = W (Proc.devRef .tc main_arg2) := by
  after_results
theorem kept_ops3_main_arg3 (W : Valuation τ sig (Elt F)) : after ops3 W (Proc.devRef .tc main_arg3) = W (Proc.devRef .tc main_arg3) := by
  after_results
theorem kept_ops3_main_arg4 (W : Valuation τ sig (Elt F)) : after ops3 W (Proc.devRef .tc main_arg4) = W (Proc.devRef .tc main_arg4) := by
  after_results
theorem kept_ops3_main_arg5 (W : Valuation τ sig (Elt F)) : after ops3 W (Proc.devRef .tc main_arg5) = W (Proc.devRef .tc main_arg5) := by
  after_results
theorem kept_ops3_main_arg6 (W : Valuation τ sig (Elt F)) : after ops3 W (Proc.devRef .tc main_arg6) = W (Proc.devRef .tc main_arg6) := by
  after_results
theorem kept_ops3_main_arg7 (W : Valuation τ sig (Elt F)) : after ops3 W (Proc.devRef .tc main_arg7) = W (Proc.devRef .tc main_arg7) := by
  after_results
theorem kept_ops4_main_arg0 (W : Valuation τ sig (Elt F)) : after ops4 W (Proc.devRef .tc main_arg0) = W (Proc.devRef .tc main_arg0) := by
  after_results
theorem kept_ops4_main_arg1 (W : Valuation τ sig (Elt F)) : after ops4 W (Proc.devRef .tc main_arg1) = W (Proc.devRef .tc main_arg1) := by
  after_results
theorem kept_ops4_main_arg2 (W : Valuation τ sig (Elt F)) : after ops4 W (Proc.devRef .tc main_arg2) = W (Proc.devRef .tc main_arg2) := by
  after_results
theorem kept_ops4_main_arg3 (W : Valuation τ sig (Elt F)) : after ops4 W (Proc.devRef .tc main_arg3) = W (Proc.devRef .tc main_arg3) := by
  after_results
theorem kept_ops4_main_arg4 (W : Valuation τ sig (Elt F)) : after ops4 W (Proc.devRef .tc main_arg4) = W (Proc.devRef .tc main_arg4) := by
  after_results
theorem kept_ops4_main_arg5 (W : Valuation τ sig (Elt F)) : after ops4 W (Proc.devRef .tc main_arg5) = W (Proc.devRef .tc main_arg5) := by
  after_results
theorem kept_ops4_main_arg6 (W : Valuation τ sig (Elt F)) : after ops4 W (Proc.devRef .tc main_arg6) = W (Proc.devRef .tc main_arg6) := by
  after_results
theorem kept_ops4_main_arg7 (W : Valuation τ sig (Elt F)) : after ops4 W (Proc.devRef .tc main_arg7) = W (Proc.devRef .tc main_arg7) := by
  after_results
theorem kept_ops5a_main_arg0 (W : Valuation τ sig (Elt F)) : after ops5a W (Proc.devRef .tc main_arg0) = W (Proc.devRef .tc main_arg0) := by
  after_results
theorem kept_ops5a_main_arg1 (W : Valuation τ sig (Elt F)) : after ops5a W (Proc.devRef .tc main_arg1) = W (Proc.devRef .tc main_arg1) := by
  after_results
theorem kept_ops5a_main_arg2 (W : Valuation τ sig (Elt F)) : after ops5a W (Proc.devRef .tc main_arg2) = W (Proc.devRef .tc main_arg2) := by
  after_results
theorem kept_ops5a_main_arg3 (W : Valuation τ sig (Elt F)) : after ops5a W (Proc.devRef .tc main_arg3) = W (Proc.devRef .tc main_arg3) := by
  after_results
theorem kept_ops5a_main_arg4 (W : Valuation τ sig (Elt F)) : after ops5a W (Proc.devRef .tc main_arg4) = W (Proc.devRef .tc main_arg4) := by
  after_results
theorem kept_ops5a_main_arg5 (W : Valuation τ sig (Elt F)) : after ops5a W (Proc.devRef .tc main_arg5) = W (Proc.devRef .tc main_arg5) := by
  after_results
theorem kept_ops5a_main_arg6 (W : Valuation τ sig (Elt F)) : after ops5a W (Proc.devRef .tc main_arg6) = W (Proc.devRef .tc main_arg6) := by
  after_results
theorem kept_ops5a_main_arg7 (W : Valuation τ sig (Elt F)) : after ops5a W (Proc.devRef .tc main_arg7) = W (Proc.devRef .tc main_arg7) := by
  after_results
theorem kept_ops5b_main_arg0 (W : Valuation τ sig (Elt F)) : after ops5b W (Proc.devRef .tc main_arg0) = W (Proc.devRef .tc main_arg0) := by
  after_results
theorem kept_ops5b_main_arg1 (W : Valuation τ sig (Elt F)) : after ops5b W (Proc.devRef .tc main_arg1) = W (Proc.devRef .tc main_arg1) := by
  after_results
theorem kept_ops5b_main_arg2 (W : Valuation τ sig (Elt F)) : after ops5b W (Proc.devRef .tc main_arg2) = W (Proc.devRef .tc main_arg2) := by
  after_results
theorem kept_ops5b_main_arg3 (W : Valuation τ sig (Elt F)) : after ops5b W (Proc.devRef .tc main_arg3) = W (Proc.devRef .tc main_arg3) := by
  after_results
theorem kept_ops5b_main_arg4 (W : Valuation τ sig (Elt F)) : after ops5b W (Proc.devRef .tc main_arg4) = W (Proc.devRef .tc main_arg4) := by
  after_results
theorem kept_ops5b_main_arg5 (W : Valuation τ sig (Elt F)) : after ops5b W (Proc.devRef .tc main_arg5) = W (Proc.devRef .tc main_arg5) := by
  after_results
theorem kept_ops5b_main_arg6 (W : Valuation τ sig (Elt F)) : after ops5b W (Proc.devRef .tc main_arg6) = W (Proc.devRef .tc main_arg6) := by
  after_results
theorem kept_ops5b_main_arg7 (W : Valuation τ sig (Elt F)) : after ops5b W (Proc.devRef .tc main_arg7) = W (Proc.devRef .tc main_arg7) := by
  after_results

variable (m : (ℓ : Loc nD τ sig) → Buf (Elt F) ℓ)

/-! ## The arguments end as launched -/

theorem kept_main_arg0 (c : Dev nD) : after ops (launchContents m c) (Proc.devRef .tc main_arg0) = m ((c.tc : Thread nD τ).loc main_arg0) := by
  rw [ops_split, after_append, after_append, after_append, after_append, after_append, after_append, kept_ops5b_main_arg0, kept_ops5a_main_arg0, kept_ops4_main_arg0, kept_ops3_main_arg0, kept_ops2b_main_arg0, kept_ops2a_main_arg0, kept_ops1_main_arg0]
theorem kept_main_arg1 (c : Dev nD) : after ops (launchContents m c) (Proc.devRef .tc main_arg1) = m ((c.tc : Thread nD τ).loc main_arg1) := by
  rw [ops_split, after_append, after_append, after_append, after_append, after_append, after_append, kept_ops5b_main_arg1, kept_ops5a_main_arg1, kept_ops4_main_arg1, kept_ops3_main_arg1, kept_ops2b_main_arg1, kept_ops2a_main_arg1, kept_ops1_main_arg1]
theorem kept_main_arg2 (c : Dev nD) : after ops (launchContents m c) (Proc.devRef .tc main_arg2) = m ((c.tc : Thread nD τ).loc main_arg2) := by
  rw [ops_split, after_append, after_append, after_append, after_append, after_append, after_append, kept_ops5b_main_arg2, kept_ops5a_main_arg2, kept_ops4_main_arg2, kept_ops3_main_arg2, kept_ops2b_main_arg2, kept_ops2a_main_arg2, kept_ops1_main_arg2]
theorem kept_main_arg3 (c : Dev nD) : after ops (launchContents m c) (Proc.devRef .tc main_arg3) = m ((c.tc : Thread nD τ).loc main_arg3) := by
  rw [ops_split, after_append, after_append, after_append, after_append, after_append, after_append, kept_ops5b_main_arg3, kept_ops5a_main_arg3, kept_ops4_main_arg3, kept_ops3_main_arg3, kept_ops2b_main_arg3, kept_ops2a_main_arg3, kept_ops1_main_arg3]
theorem kept_main_arg4 (c : Dev nD) : after ops (launchContents m c) (Proc.devRef .tc main_arg4) = m ((c.tc : Thread nD τ).loc main_arg4) := by
  rw [ops_split, after_append, after_append, after_append, after_append, after_append, after_append, kept_ops5b_main_arg4, kept_ops5a_main_arg4, kept_ops4_main_arg4, kept_ops3_main_arg4, kept_ops2b_main_arg4, kept_ops2a_main_arg4, kept_ops1_main_arg4]
theorem kept_main_arg5 (c : Dev nD) : after ops (launchContents m c) (Proc.devRef .tc main_arg5) = m ((c.tc : Thread nD τ).loc main_arg5) := by
  rw [ops_split, after_append, after_append, after_append, after_append, after_append, after_append, kept_ops5b_main_arg5, kept_ops5a_main_arg5, kept_ops4_main_arg5, kept_ops3_main_arg5, kept_ops2b_main_arg5, kept_ops2a_main_arg5, kept_ops1_main_arg5]
theorem kept_main_arg6 (c : Dev nD) : after ops (launchContents m c) (Proc.devRef .tc main_arg6) = m ((c.tc : Thread nD τ).loc main_arg6) := by
  rw [ops_split, after_append, after_append, after_append, after_append, after_append, after_append, kept_ops5b_main_arg6, kept_ops5a_main_arg6, kept_ops4_main_arg6, kept_ops3_main_arg6, kept_ops2b_main_arg6, kept_ops2a_main_arg6, kept_ops1_main_arg6]
theorem kept_main_arg7 (c : Dev nD) : after ops (launchContents m c) (Proc.devRef .tc main_arg7) = m ((c.tc : Thread nD τ).loc main_arg7) := by
  rw [ops_split, after_append, after_append, after_append, after_append, after_append, after_append, kept_ops5b_main_arg7, kept_ops5a_main_arg7, kept_ops4_main_arg7, kept_ops3_main_arg7, kept_ops2b_main_arg7, kept_ops2a_main_arg7, kept_ops1_main_arg7]

end Stretches

/-! ## What each stretch writes, at the ideal values, from any contents -/

theorem stretch1 (W : Valuation τ sig (Elt Ideal)) :
    (after ops1 W (Proc.devRef .tc main_v3) : FVec Ideal S50000x256 .f32)
      = dense1 (W (Proc.devRef .tc main_arg0)) (W (Proc.devRef .tc main_arg4)) (W (Proc.devRef .tc main_arg5)) := by
  after_results <;> rfl

theorem stretch2a (W : Valuation τ sig (Elt Ideal)) :
    (after ops2a W (Proc.devRef .tc main_v16) : FVec Ideal S50000x256 .f32)
      = aggregate1 (W (Proc.devRef .tc main_arg1)) (W (Proc.devRef .tc main_arg2)) (W (Proc.devRef .tc main_arg3)) (W (Proc.devRef .tc main_v3)) := by
  after_results <;> rfl

theorem stretch2b (W : Valuation τ sig (Elt Ideal)) :
    (after ops2b W (Proc.devRef .tc main_v17) : FVec Ideal S50000x256 .f32) = relu1 (W (Proc.devRef .tc main_v16)) := by
  after_results <;> rfl

theorem stretch3 (W : Valuation τ sig (Elt Ideal)) :
    (after ops3 W (Proc.devRef .tc main_v21) : FVec Ideal S50000x64 .f32)
      = dense2 (W (Proc.devRef .tc main_v17)) (W (Proc.devRef .tc main_arg6)) (W (Proc.devRef .tc main_arg7)) := by
  after_results <;> rfl

theorem stretch4 (W : Valuation τ sig (Elt Ideal)) :
    (after ops4 W (Proc.devRef .tc main_v34) : FVec Ideal S50000x64 .f32)
      = aggregate2 (W (Proc.devRef .tc main_arg1)) (W (Proc.devRef .tc main_arg2)) (W (Proc.devRef .tc main_arg3)) (W (Proc.devRef .tc main_v21)) := by
  after_results <;> rfl

theorem stretch5a (W : Valuation τ sig (Elt Ideal)) :
    (after ops5a W (Proc.devRef .tc main_call1_v5) : FVec Ideal S50000x64 .f32) = shifted (W (Proc.devRef .tc main_v34)) := by
  after_results <;> rfl

theorem stretch5b (W : Valuation τ sig (Elt Ideal)) :
    (after ops5b W (Proc.devRef .tc main_v35) : FVec Ideal S50000x64 .f32)
      = subf (F := Ideal) (W (Proc.devRef .tc main_call1_v5)) (broadcastInDim S50000x64 ![0, 1] bcast_S50000x1_S50000x64_0_1
          (Host.log (F := Ideal) (broadcastInDim S50000x1 ![0] bcast_S50000_S50000x1_0
            (Host.reduceAdd (F := Ideal) (Host.exp (F := Ideal) (W (Proc.devRef .tc main_call1_v5))) (constant (F := Ideal) S_ .f32 0x00000000#32) reducesTo_S50000x64_S50000_d1 h_S_)))) := by
  after_results <;> rfl

/-! ## The run -/

variable (m : (ℓ : Loc nD τ sig) → Buf (Elt Ideal) ℓ) (ρ : Dev nD → PrngReg)

/-- The result buffer after the 58 operations, from the launch contents: the network of the arguments. -/
theorem result_value (c : Dev nD) :
    (after ops (launchContents m c) (Proc.devRef .tc main_v35) : FVec Ideal S50000x64 .f32)
      = network (launchContents m c (Proc.devRef .tc main_arg0)) (launchContents m c (Proc.devRef .tc main_arg1)) (launchContents m c (Proc.devRef .tc main_arg2)) (launchContents m c (Proc.devRef .tc main_arg3))
          (launchContents m c (Proc.devRef .tc main_arg4)) (launchContents m c (Proc.devRef .tc main_arg5)) (launchContents m c (Proc.devRef .tc main_arg6)) (launchContents m c (Proc.devRef .tc main_arg7)) := by
  rw [ops_split, after_append, after_append, after_append, after_append, after_append, after_append]
  rw [stretch5b, stretch5a, stretch4, stretch3, stretch2b, stretch2a, stretch1]
  rw [kept_ops3_main_arg1, kept_ops3_main_arg2, kept_ops3_main_arg3]
  rw [kept_ops2b_main_arg1, kept_ops2b_main_arg2, kept_ops2b_main_arg3, kept_ops2b_main_arg6, kept_ops2b_main_arg7]
  rw [kept_ops2a_main_arg1, kept_ops2a_main_arg2, kept_ops2a_main_arg3, kept_ops2a_main_arg6, kept_ops2a_main_arg7]
  rw [kept_ops1_main_arg1, kept_ops1_main_arg2, kept_ops1_main_arg3, kept_ops1_main_arg6, kept_ops1_main_arg7]
  rfl

/-- Every weakly fair execution of the reference terminates with the result at the network of the arguments and the
    arguments unchanged. -/
theorem run :
    θ_run defs (onTc (τ := τ) (main (F := Ideal))) ⟨m, fun _ => 0, ρ⟩ fun r => ∀ c : Dev nD,
      (r.2.mem ((c.tc : Thread nD τ).loc main_v35) : FVec Ideal S50000x64 .f32)
        = network (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v35).trans (result_value m c),
      (h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c)⟩)
    (run_seq scopedRefs_eq scopedSems_eq defs main (fun _ => ops) main_eq (fun _ => ops_sub) m ρ)

end Cert.Gcn.Ref

end
-- ==== Proof.lean ====
/-
  The kernel and its reference compute the same two-layer graph network on the extended reals.

  The network: a dense layer X W₁ + b₁ on 50000 node rows; an aggregation over 800000 edges (gather the rows the
  column list names, weigh by the edge value, add into the rows the row list names); the maximum with zero; a second
  dense layer; a second aggregation; a row-wise log-softmax. The kernel computes the two dense layers and the
  log-softmax in three tiled launches of 25 blocks of 2000 rows each and everything else with the reference's own
  host operations. A dense layer's entry (r, j) is Σ_k x(r,k)·w(k,j) + b(j) in both programs, the same sum in the same
  order (the kernel's narrowing of its operands is the identity on exact values), and depends on row r only, so the
  25 blocks are the 25 row bands of the reference's one product; likewise a row's log-softmax depends on that row
  only (the reference's second maximum against −∞ changes nothing). So both result arrays are `Cert.Gcn.network` of
  the arguments (Proof/KernelChain.lean, Proof/ReferenceRun.lean), whatever the arguments hold: no finiteness is used.
  The frames: the kernels' are the generated ones; the reference's is its run with the result dropped. The ideal
  pass rewrote nothing, so `preserves` is trivial.
-/
import proofs.«103311_j46179488366795_1_alg».proof.Defs
import proofs.«103311_j46179488366795_1_alg».proof.Proof.Gen.Kernel
import proofs.«103311_j46179488366795_1_alg».proof.Proof.Gen.Kernel.Frame
import proofs.«103311_j46179488366795_1_alg».proof.Proof.Gen.KernelIdeal
import proofs.«103311_j46179488366795_1_alg».proof.Proof.Gen.KernelIdeal.Frame
import proofs.«103311_j46179488366795_1_alg».proof.Proof.Gen.ReferenceIdeal
import proofs.«103311_j46179488366795_1_alg».proof.Proof.Gen.Pre_finite_inputs
import proofs.«103311_j46179488366795_1_alg».proof.Proof.KernelRun
import proofs.«103311_j46179488366795_1_alg».proof.Proof.KernelChain
import proofs.«103311_j46179488366795_1_alg».proof.Proof.ReferenceRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.Gcn.Ref.run m ρ)

/-- Both programs end with the result array at the network of the arguments, and the arguments agree. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Gcn.result_value m ρ c), (h c).2⟩) (Cert.Gcn.run_result (F := Ideal) m ρ)
  · refine (θ_run Cert.ReferenceIdeal.defs _ _).mono (fun _ h c => ⟨(h c).1.trans ?_, (h c).2⟩) (Cert.Gcn.Ref.run m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
